-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v194) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x128 : Shape := ⟨2, ![256, 128]⟩
abbrev S128x1024 : Shape := ⟨2, ![128, 1024]⟩
abbrev S1024 : Shape := ⟨1, ![1024]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x1024 .f32) (main_arg13 : FVec F S1024 .f32) (main_arg14 : FVec F S128x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1024 .f32 := Host.absf main_arg12
  let main_cst_20 : FVec F S_ .f32 := constant S_ .f32 0x7F800000#32
  let main_v55 : FVec F S128x1024 .f32 := broadcastInDim S128x1024 ![] bcast_S_S128x1024 main_cst_20
  let main_v56 : IVec S128x1024 1 := cmpf .olt main_v54 main_v55
  let main_c_21 : IVec S_ 1 := constantI S_ 1 1#1
  let main_v57 : IVec S_ 1 := (fun x v => Host.reduce IntOp.andi x v reducesTo_S128x1024_S_d0_1 h_S_) main_v56 main_c_21
  let main_v58 : IVec S_ 1 := andi main_v53 main_v57
  let main_v59 : FVec F S1024 .f32 := Host.absf main_arg13
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg15 main_v63 main_v67

def fn_part2 {F : FTy → Type} [FloatOps F] (main_arg8 : FVec F S64x256 .f32) (main_arg9 : FVec F S256 .f32) (main_arg10 : FVec F S256x128 .f32) (main_arg11 : FVec F S128 .f32) (main_arg12 : FVec F S128x1024 .f32) (main_arg13 : FVec F S1024 .f32) (main_arg14 : FVec F S128x1 .f32) (main_arg15 : FVec F S1 .f32) (main_v33 : IVec S_ 1) : IVec S_ 1 :=
  let main_v34 : FVec F S64x256 .f32 := Host.absf main_arg8
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S64 .f32) (main_arg6 : FVec F S64x64 .f32) (main_arg7 : FVec F S64 .f32) (main_arg8 : FVec F S64x256 .f32) (main_arg9 : FVec F S256 .f32) (main_arg10 : FVec F S256x128 .f32) (main_arg11 : FVec F S128 .f32) (main_arg12 : FVec F S128x1024 .f32) (main_arg13 : FVec F S1024 .f32) (main_arg14 : FVec F S128x1 .f32) (main_arg15 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S64x64 .f32) (main_arg7 : FVec F S64 .f32) (main_arg8 : FVec F S64x256 .f32) (main_arg9 : FVec F S256 .f32) (main_arg10 : FVec F S256x128 .f32) (main_arg11 : FVec F S128 .f32) (main_arg12 : FVec F S128x1024 .f32) (main_arg13 : FVec F S1024 .f32) (main_arg14 : FVec F S128x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x128 : Shape := ⟨2, ![256, 128]⟩
abbrev S128x1024 : Shape := ⟨2, ![128, 1024]⟩
abbrev S1024 : Shape := ⟨1, ![1024]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S800000x128 : Shape := ⟨2, ![800000, 128]⟩
abbrev S1x128 : Shape := ⟨2, ![1, 128]⟩
abbrev S2000x1 : Shape := ⟨2, ![2000, 1]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S50000x256 : Shape := ⟨2, ![50000, 256]⟩
abbrev S2000x256 : Shape := ⟨2, ![2000, 256]⟩
abbrev S800000x256 : Shape := ⟨2, ![800000, 256]⟩
abbrev S1x256 : Shape := ⟨2, ![1, 256]⟩
abbrev S1x1024 : Shape := ⟨2, ![1, 1024]⟩
abbrev S50000x1024 : Shape := ⟨2, ![50000, 1024]⟩
abbrev S2000x1024 : Shape := ⟨2, ![2000, 1024]⟩
abbrev S1x1 : Shape := ⟨2, ![1, 1]⟩
abbrev S16000x128 : Shape := ⟨2, ![16000, 128]⟩
abbrev S16000x1 : Shape := ⟨2, ![16000, 1]⟩

abbrev nBuf : Space → Nat
  | .hbm => 151
  | .vmem => 74
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S64x64, .f32⟩
  | 7 => ⟨S64, .f32⟩
  | 8 => ⟨S64x256, .f32⟩
  | 9 => ⟨S256, .f32⟩
  | 10 => ⟨S256x128, .f32⟩
  | 11 => ⟨S128, .f32⟩
  | 12 => ⟨S128x1024, .f32⟩
  | 13 => ⟨S1024, .f32⟩
  | 14 => ⟨S128x1, .f32⟩
  | 15 => ⟨S1, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000, .f32⟩
  | 33 => ⟨S50000x1, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S800000x1, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S1x128, .f32⟩
  | 71 => ⟨S50000x128, .f32⟩
  | 72 => ⟨S50000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S800000x64, .f32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S1x64, .f32⟩
  | 89 => ⟨S50000x64, .f32⟩
  | 90 => ⟨S1x64, .f32⟩
  | 91 => ⟨S50000x64, .f32⟩
  | 92 => ⟨S50000x256, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x256, .f32⟩
  | 102 => ⟨S800000x256, .f32⟩
  | 103 => ⟨S800000x256, .f32⟩
  | 104 => ⟨S_, .f32⟩
  | 105 => ⟨S50000x256, .f32⟩
  | 106 => ⟨S800000x1, .i32⟩
  | 107 => ⟨S50000x256, .f32⟩
  | 108 => ⟨S1x256, .f32⟩
  | 109 => ⟨S50000x256, .f32⟩
  | 110 => ⟨S50000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x128, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S1x1024, .f32⟩
  | 1 => ⟨S50000x1024, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x64, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S800000x128, .f32⟩
  | 21 => ⟨S1x1, .f32⟩
  | 22 => ⟨S800000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S64x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x1, .f32⟩
  | .local _ .vmem, ⟨44, _⟩ => ⟨S2000x1, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S256x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x1, .f32⟩
  | .local _ .vmem, ⟨58, _⟩ => ⟨S2000x1, .f32⟩
  | .local _ .vmem, ⟨59, _⟩ => ⟨S1x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S128x1024, .f32⟩
  | .local _ .vmem, ⟨65, _⟩ => ⟨S1x1024, .f32⟩
  | .local _ .vmem, ⟨66, _⟩ => ⟨S2000x1024, .f32⟩
  | .local _ .vmem, ⟨67, _⟩ => ⟨S2000x1024, .f32⟩
  | .local _ .vmem, ⟨68, _⟩ => ⟨S16000x128, .f32⟩
  | .local _ .vmem, ⟨69, _⟩ => ⟨S16000x128, .f32⟩
  | .local _ .vmem, ⟨70, _⟩ => ⟨S128x1, .f32⟩
  | .local _ .vmem, ⟨71, _⟩ => ⟨S1x1, .f32⟩
  | .local _ .vmem, ⟨72, _⟩ => ⟨S16000x1, .f32⟩
  | .local _ .vmem, ⟨73, _⟩ => ⟨S16000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_15 : Ref sig .tc := ⟨.hbm, 111, rfl⟩
abbrev main_v78 : Ref sig .tc := ⟨.hbm, 112, rfl⟩
abbrev main_v79 : Ref sig .tc := ⟨.hbm, 113, rfl⟩
abbrev main_c_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_18 : Ref sig .tc := ⟨.hbm, 130, rfl⟩
abbrev main_v94 : Ref sig .tc := ⟨.hbm, 131, rfl⟩
abbrev main_v95 : Ref sig .tc := ⟨.hbm, 132, rfl⟩
abbrev main_c_19 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_20 : Ref sig .tc := ⟨.hbm, 139, rfl⟩
abbrev main_v101 : Ref sig .tc := ⟨.hbm, 140, rfl⟩
abbrev main_v102 : Ref sig .tc := ⟨.hbm, 141, rfl⟩
abbrev main_c_21 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg2_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg2_1 : Ref sig .tc := ⟨.vmem, 58, rfl⟩
abbrev cc8_stg3_0 : Ref sig .tc := ⟨.vmem, 59, rfl⟩
abbrev cc8_stg4_0 : Ref sig .tc := ⟨.vmem, 60, rfl⟩
abbrev cc8_stg4_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg3_0 : Ref sig .tc := ⟨.vmem, 66, rfl⟩
abbrev cc9_stg3_1 : Ref sig .tc := ⟨.vmem, 67, rfl⟩
abbrev cc10_stg0_0 : Ref sig .tc := ⟨.vmem, 68, rfl⟩
abbrev cc10_stg0_1 : Ref sig .tc := ⟨.vmem, 69, rfl⟩
abbrev cc10_stg1_0 : Ref sig .tc := ⟨.vmem, 70, rfl⟩
abbrev cc10_stg2_0 : Ref sig .tc := ⟨.vmem, 71, rfl⟩
abbrev cc10_stg3_0 : Ref sig .tc := ⟨.vmem, 72, rfl⟩
abbrev cc10_stg3_1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem2_1 : DmaSem sig := 44
abbrev cc6_sem3_0 : DmaSem sig := 45
abbrev cc6_sem4_0 : DmaSem sig := 46
abbrev cc6_sem4_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem2_1 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57
abbrev cc8_sem2_1 : DmaSem sig := 58
abbrev cc8_sem3_0 : DmaSem sig := 59
abbrev cc8_sem4_0 : DmaSem sig := 60
abbrev cc8_sem4_1 : DmaSem sig := 61
abbrev cc9_sem0_0 : DmaSem sig := 62
abbrev cc9_sem0_1 : DmaSem sig := 63
abbrev cc9_sem1_0 : DmaSem sig := 64
abbrev cc9_sem2_0 : DmaSem sig := 65
abbrev cc9_sem3_0 : DmaSem sig := 66
abbrev cc9_sem3_1 : DmaSem sig := 67
abbrev cc10_sem0_0 : DmaSem sig := 68
abbrev cc10_sem0_1 : DmaSem sig := 69
abbrev cc10_sem1_0 : DmaSem sig := 70
abbrev cc10_sem2_0 : DmaSem sig := 71
abbrev cc10_sem3_0 : DmaSem sig := 72
abbrev cc10_sem3_1 : DmaSem sig := 73

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S2000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x1024 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S16000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x1 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S16000x1 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S64x256_S64x256_0_0 : ∀ a, (![0, 0] : Fin 2 → Nat) a + S64x256.size a ≤ S64x256.size a
  h_S64x256 : 0 < S64x256.numel
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  concatenates_S800000x64_S800000x64_S800000x128_d1 : Shape.Concatenates [S800000x64, S800000x64] S800000x128 1
  shapeCasts_S1_S1x1 : S1.ShapeCasts S1x1
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16000x1 : S1x1.Broadcasts S16000x1
  inb_S16000x1_S16000x1_0_0 : ∀ a, (![0, 0] : Fin 2 → Nat) a + S16000x1.size a ≤ S16000x1.size a
  h_S16000x1 : 0 < S16000x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x256_S2000x256_1_0_0_1_n_n_wf : DotDims.WF S2000x64 S64x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  dot_S2000x128_S128x1024_S2000x1024_1_0_0_1_n_n_wf : DotDims.WF S2000x128 S128x1024 S2000x1024 [1] [0] [0] [1] [] []
  dot_S16000x128_S128x1_S16000x1_1_0_0_1_n_n_wf : DotDims.WF S16000x128 S128x1 S16000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x256.size a ≤ S64x256.size a
  hwx5_1 : ∀ i : grid5.Coords, EltTy.bits .f32 = 32 ∨ (Rect.block (s := S64x256) S64x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x256.size a ≤ S50000x256.size a
  hwx6_4 : ∀ i : grid6.Coords, EltTy.bits .f32 = 32 ∨ (Rect.block (s := S50000x256) S2000x256.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .f32 = 32 ∨ (Rect.block (s := S256x128) S256x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S50000x128.size a
  hwx7_2 : ∀ i : grid7.Coords, EltTy.bits .f32 = 32 ∨ (Rect.block (s := S50000x128) S2000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x1.size a ≤ S50000x1.size a
  hwx8_2 : ∀ i : grid8.Coords, EltTy.bits .f32 = 32 ∨ (Rect.block (s := S50000x1) S2000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x128.size a ≤ S50000x128.size a
  hwx8_4 : ∀ i : grid8.Coords, EltTy.bits .f32 = 32 ∨ (Rect.block (s := S50000x128) S2000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x1024.size a ≤ S128x1024.size a
  hwx9_1 : ∀ i : grid9.Coords, EltTy.bits .f32 = 32 ∨ (Rect.block (s := S128x1024) S128x1024.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1024.size a ≤ S1x1024.size a
  hwx9_2 : ∀ i : grid9.Coords, EltTy.bits .f32 = 32 ∨ (Rect.block (s := S1x1024) S1x1024.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x1024.size a ≤ S50000x1024.size a
  hwx9_3 : ∀ i : grid9.Coords, EltTy.bits .f32 = 32 ∨ (Rect.block (s := S50000x1024) S2000x1024.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S16000x128.size a ≤ S800000x128.size a
  hwx10_0 : ∀ i : grid10.Coords, EltTy.bits .f32 = 32 ∨ (Rect.block (s := S800000x128) S16000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x1.size a ≤ S128x1.size a
  hwx10_1 : ∀ i : grid10.Coords, EltTy.bits .f32 = 32 ∨ (Rect.block (s := S128x1) S128x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S16000x1.size a ≤ S800000x1.size a
  hwx10_3 : ∀ i : grid10.Coords, EltTy.bits .f32 = 32 ∨ (Rect.block (s := S800000x1) S16000x1.size (cc10_transform_3 i) (hinb10_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1024_S2000x1024_1_0_0_1_n_n : DotDims S2000x128 S128x1024 S2000x1024 where
  lhsContracting := [1]
  rhsContracting := [0]
  lhsNonContracting := [0]
  rhsNonContracting := [1]
  lhsBatch := []
  rhsBatch := []
  wf := dot_S2000x128_S128x1024_S2000x1024_1_0_0_1_n_n_wf
def dot_S16000x128_S128x1_S16000x1_1_0_0_1_n_n : DotDims S16000x128 S128x1 S16000x1 where
  lhsContracting := [1]
  rhsContracting := [0]
  lhsNonContracting := [0]
  rhsNonContracting := [1]
  lhsBatch := []
  rhsBatch := []
  wf := dot_S16000x128_S128x1_S16000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v61) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S2000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v62) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v13) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v75) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v76) S2000x256.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v76) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v77) S2000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v89) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v77) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v13) S2000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v90) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v91) S2000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v91) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg12) S128x1024.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v92) S1x1024.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v93) S2000x1024.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v108) S16000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg14) S128x1.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v109) S1x1.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v110) S16000x1.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x128 : Shape := ⟨2, ![256, 128]⟩
abbrev S128x1024 : Shape := ⟨2, ![128, 1024]⟩
abbrev S1024 : Shape := ⟨1, ![1024]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S50000x256 : Shape := ⟨2, ![50000, 256]⟩
abbrev S800000x256 : Shape := ⟨2, ![800000, 256]⟩
abbrev S1x256 : Shape := ⟨2, ![1, 256]⟩
abbrev S50000x1024 : Shape := ⟨2, ![50000, 1024]⟩
abbrev S1x1024 : Shape := ⟨2, ![1, 1024]⟩
abbrev S1x1 : Shape := ⟨2, ![1, 1]⟩

abbrev nBuf : Space → Nat
  | .hbm => 253
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S64x64, .f32⟩
  | 7 => ⟨S64, .f32⟩
  | 8 => ⟨S64x256, .f32⟩
  | 9 => ⟨S256, .f32⟩
  | 10 => ⟨S256x128, .f32⟩
  | 11 => ⟨S128, .f32⟩
  | 12 => ⟨S128x1024, .f32⟩
  | 13 => ⟨S1024, .f32⟩
  | 14 => ⟨S128x1, .f32⟩
  | 15 => ⟨S1, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S800000x1, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x128, .f32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S50000, .f32⟩
  | 69 => ⟨S50000x1, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S800000x1, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x64, .f32⟩
  | 109 => ⟨S800000x64, .f32⟩
  | 110 => ⟨S800000x64, .f32⟩
  | 111 => ⟨S_, .f32⟩
  | 112 => ⟨S50000x64, .f32⟩
  | 113 => ⟨S800000x1, .i32⟩
  | 114 => ⟨S50000x64, .f32⟩
  | 115 => ⟨S50000, .f32⟩
  | 116 => ⟨S50000x1, .f32⟩
  | 117 => ⟨S50000x64, .f32⟩
  | 118 => ⟨S50000x64, .f32⟩
  | 119 => ⟨S50000x64, .f32⟩
  | 120 => ⟨S1x64, .f32⟩
  | 121 => ⟨S50000x64, .f32⟩
  | 122 => ⟨S50000x64, .f32⟩
  | 123 => ⟨S50000x64, .f32⟩
  | 124 => ⟨S1x64, .f32⟩
  | 125 => ⟨S50000x64, .f32⟩
  | 126 => ⟨S50000x64, .f32⟩
  | 127 => ⟨S50000x256, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000, .f32⟩
  | 18 => ⟨S800000, .f32⟩
  | 19 => ⟨S800000x1, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x256, .f32⟩
  | 29 => ⟨S800000x256, .f32⟩
  | 30 => ⟨S800000x256, .f32⟩
  | 31 => ⟨S_, .f32⟩
  | 32 => ⟨S50000x256, .f32⟩
  | 33 => ⟨S800000x1, .i32⟩
  | 34 => ⟨S50000x256, .f32⟩
  | 35 => ⟨S50000, .f32⟩
  | 36 => ⟨S50000x1, .f32⟩
  | 37 => ⟨S50000x256, .f32⟩
  | 38 => ⟨S50000x256, .f32⟩
  | 39 => ⟨S50000x256, .f32⟩
  | 40 => ⟨S1x256, .f32⟩
  | 41 => ⟨S50000x256, .f32⟩
  | 42 => ⟨S50000x256, .f32⟩
  | 43 => ⟨S_, .f32⟩
  | 44 => ⟨S50000x256, .f32⟩
  | 45 => ⟨S50000x256, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S800000, .f32⟩
  | 66 => ⟨S800000x1, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S800000x128, .f32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S50000, .f32⟩
  | 83 => ⟨S50000x1, .f32⟩
  | 84 => ⟨S50000x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S50000x1024, .f32⟩
  | 91 => ⟨S1x1024, .f32⟩
  | 92 => ⟨S50000x1024, .f32⟩
  | 93 => ⟨S50000x1024, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x128, .f32⟩
  | 113 => ⟨S800000x1, .f32⟩
  | 114 => ⟨S1x1, .f32⟩
  | 115 => ⟨S800000x1, .f32⟩
  | 116 => ⟨S800000x1, .f32⟩
  | 117 => ⟨S800000x1, .f32⟩
  | 118 => ⟨S800000x1, .f32⟩
  | 119 => ⟨S_, .f32⟩
  | 120 => ⟨S800000x1, .f32⟩
  | 121 => ⟨S800000x1, .f32⟩
  | 122 => ⟨S_, .f32⟩
  | 123 => ⟨S800000x1, .f32⟩
  | 124 => ⟨S800000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call0_cst : Ref sig .tc := ⟨.hbm, 76, rfl⟩
abbrev main_call0_v0 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_c_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_16 : Ref sig .tc := ⟨.hbm, 128, rfl⟩
abbrev main_v92 : Ref sig .tc := ⟨.hbm, 129, rfl⟩
abbrev main_v93 : Ref sig .tc := ⟨.hbm, 130, rfl⟩
abbrev main_c_17 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_18 : Ref sig .tc := ⟨.hbm, 137, rfl⟩
abbrev main_v99 : Ref sig .tc := ⟨.hbm, 138, rfl⟩
abbrev main_v100 : Ref sig .tc := ⟨.hbm, 139, rfl⟩
abbrev main_c_19 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_20 : Ref sig .tc := ⟨.hbm, 148, rfl⟩
abbrev main_v108 : Ref sig .tc := ⟨.hbm, 149, rfl⟩
abbrev main_v109 : Ref sig .tc := ⟨.hbm, 150, rfl⟩
abbrev main_c_21 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_22 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_call1_cst : Ref sig .tc := ⟨.hbm, 171, rfl⟩
abbrev main_call1_v0 : Ref sig .tc := ⟨.hbm, 172, rfl⟩
abbrev main_v128 : Ref sig .tc := ⟨.hbm, 173, rfl⟩
abbrev main_v129 : Ref sig .tc := ⟨.hbm, 174, rfl⟩
abbrev main_c_23 : Ref sig .tc := ⟨.hbm, 175, rfl⟩
abbrev main_v130 : Ref sig .tc := ⟨.hbm, 176, rfl⟩
abbrev main_v131 : Ref sig .tc := ⟨.hbm, 177, rfl⟩
abbrev main_c_24 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_c_25 : Ref sig .tc := ⟨.hbm, 184, rfl⟩
abbrev main_v137 : Ref sig .tc := ⟨.hbm, 185, rfl⟩
abbrev main_v138 : Ref sig .tc := ⟨.hbm, 186, rfl⟩
abbrev main_c_26 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_c_27 : Ref sig .tc := ⟨.hbm, 195, rfl⟩
abbrev main_v146 : Ref sig .tc := ⟨.hbm, 196, rfl⟩
abbrev main_v147 : Ref sig .tc := ⟨.hbm, 197, rfl⟩
abbrev main_c_28 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_29 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_c_30 : Ref sig .tc := ⟨.hbm, 222, rfl⟩
abbrev main_v170 : Ref sig .tc := ⟨.hbm, 223, rfl⟩
abbrev main_v171 : Ref sig .tc := ⟨.hbm, 224, rfl⟩
abbrev main_c_31 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_c_32 : Ref sig .tc := ⟨.hbm, 231, rfl⟩
abbrev main_v177 : Ref sig .tc := ⟨.hbm, 232, rfl⟩
abbrev main_v178 : Ref sig .tc := ⟨.hbm, 233, rfl⟩
abbrev main_c_33 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_cst_34 : Ref sig .tc := ⟨.hbm, 247, rfl⟩
abbrev main_v191 : Ref sig .tc := ⟨.hbm, 248, rfl⟩
abbrev main_v192 : Ref sig .tc := ⟨.hbm, 249, rfl⟩
abbrev main_cst_35 : Ref sig .tc := ⟨.hbm, 250, rfl⟩
abbrev main_v193 : Ref sig .tc := ⟨.hbm, 251, rfl⟩
abbrev main_v194 : Ref sig .tc := ⟨.hbm, 252, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  concatenates_S800000x64_S800000x64_S800000x128_d1 : Shape.Concatenates [S800000x64, S800000x64] S800000x128 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x256_S50000x256_1_0_0_1_n_n_wf : DotDims.WF S50000x64 S64x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x1024_S50000x1024_1_0_0_1_n_n_wf : DotDims.WF S50000x128 S128x1024 S50000x1024 [1] [0] [0] [1] [] []
  dot_S800000x128_S128x1_S800000x1_1_0_0_1_n_n_wf : DotDims.WF S800000x128 S128x1 S800000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1024_S50000x1024_1_0_0_1_n_n : DotDims S50000x128 S128x1024 S50000x1024 where
  lhsContracting := [1]
  rhsContracting := [0]
  lhsNonContracting := [0]
  rhsNonContracting := [1]
  lhsBatch := []
  rhsBatch := []
  wf := dot_S50000x128_S128x1024_S50000x1024_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.RunNamed.lean ====
/-
  The idealized kernel's run with its two result arrays named.

  @main is nineteen segments: host stretches and eleven pipelined regions. The contents of every buffer at each
  segment boundary are a fold from the launch memory; at the return every unscoped buffer holds the last boundary's
  contents. Read at the two result buffers (the reconstruction of the node features and the edge probabilities),
  and at the sixteen argument arrays (which no segment writes), that gives the run's post below.
-/
import proofs.«160709_j25048249270384_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the two result arrays end at the last
    boundary's contents and the argument arrays end as launched. -/
theorem run : θ_run defs (onTc (τ := τ) (main (F := F))) ⟨m, fun _ => 0, ρ⟩ (fun r => ∀ c : Dev nD,
      r.2.mem ((c.tc : Thread nD τ).loc main_v93) = W19 m ρ c (Proc.devRef .tc main_v93)
      ∧ r.2.mem ((c.tc : Thread nD τ).loc main_v110) = W19 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v93 (by decide)),
       h c _ (mem_uc main_v110 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c)⟩)

end Cert.KernelIdeal.Named

end
-- ==== Proof.Kept.lean ====
/-
  The buffers no later segment writes.

  The sixteen argument arrays are written by no segment of @main. The first host stretch computes four arrays every
  later segment only reads: the edges' source indices and target indices, the column of squared inverse
  square-root degrees, and the per-edge norm. Across each later segment — a host stretch that writes other buffers, or
  a region that writes only its output array and leaves its input arrays as entered — these twenty buffers keep their
  contents; chained, each holds at every boundary what it held at the first.
-/
import proofs.«160709_j25048249270384_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- The argument arrays. -/
def args : List (Ref sig .tc) := [main_arg0, main_arg1, main_arg2, main_arg3, main_arg4, main_arg5, main_arg6, main_arg7, main_arg8, main_arg9, main_arg10, main_arg11, main_arg12, main_arg13, main_arg14, main_arg15]

/-- The argument arrays and the four arrays of the first host stretch that later segments read. -/
def stable : List (Ref sig .tc) := [main_arg0, main_arg1, main_arg2, main_arg3, main_arg4, main_arg5, main_arg6, main_arg7, main_arg8, main_arg9, main_arg10, main_arg11, main_arg12, main_arg13, main_arg14, main_arg15, main_v1, main_v3, main_v13, main_v29]

/-- The host stretch before boundary 1 writes none of them. -/
theorem kept1 : ∀ b ∈ args, W1 m ρ c (Proc.devRef .tc b) = W0 m ρ c (Proc.devRef .tc b) := by
  intro b hb
  simp only [args, List.mem_cons, List.mem_singleton, List.not_mem_nil, or_false] at hb
  rcases hb with rfl | rfl | rfl | rfl | rfl | rfl | rfl | rfl | rfl | rfl | rfl | rfl | rfl | rfl | rfl | rfl
  all_goals exact StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 0 writes only its output array; an array it reads through an input window ends as it was entered. -/
theorem kept2 : ∀ b ∈ stable, W2 m ρ c (Proc.devRef .tc b) = W1 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))

/-- The host stretch before boundary 3 writes none of them. -/
theorem kept3 : ∀ b ∈ stable, W3 m ρ c (Proc.devRef .tc b) = W2 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals exact StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 1 writes only its output array; an array it reads through an input window ends as it was entered. -/
theorem kept4 : ∀ b ∈ stable, W4 m ρ c (Proc.devRef .tc b) = W3 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact W4_of_ne m ρ c _ (by decide)
    | exact (W4_arr m ρ c 2).trans (((dat1 (V3 m ρ) c).arrAt_in 2 rfl _).trans (A_eq1 (V3 m ρ) c 2))

/-- Region 2 writes only its output array; an array it reads through an input window ends as it was entered. -/
theorem kept5 : ∀ b ∈ stable, W5 m ρ c (Proc.devRef .tc b) = W4 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact W5_of_ne m ρ c _ (by decide)
    | exact (W5_arr m ρ c 1).trans (((dat2 (V4 m ρ) c).arrAt_in 1 rfl _).trans (A_eq2 (V4 m ρ) c 1))

/-- The host stretch before boundary 6 writes none of them. -/
theorem kept6 : ∀ b ∈ stable, W6 m ρ c (Proc.devRef .tc b) = W5 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals exact StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 3 writes only its output array; an array it reads through an input window ends as it was entered. -/
theorem kept7 : ∀ b ∈ stable, W7 m ρ c (Proc.devRef .tc b) = W6 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact W7_of_ne m ρ c _ (by decide)
    | exact (W7_arr m ρ c 2).trans (((dat3 (V6 m ρ) c).arrAt_in 2 rfl _).trans (A_eq3 (V6 m ρ) c 2))

/-- The host stretch before boundary 8 writes none of them. -/
theorem kept8 : ∀ b ∈ stable, W8 m ρ c (Proc.devRef .tc b) = W7 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals exact StableHlo.after_of_forall_not_mem _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 4 writes only its output array; an array it reads through an input window ends as it was entered. -/
theorem kept9 : ∀ b ∈ stable, W9 m ρ c (Proc.devRef .tc b) = W8 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact W9_of_ne m ρ c _ (by decide)
    | exact (W9_arr m ρ c 1).trans (((dat4 (V8 m ρ) c).arrAt_in 1 rfl _).trans (A_eq4 (V8 m ρ) c 1))

/-- Region 5 writes only its output array; an array it reads through an input window ends as it was entered. -/
theorem kept10 : ∀ b ∈ stable, W10 m ρ c (Proc.devRef .tc b) = W9 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact W10_of_ne m ρ c _ (by decide)
    | exact (W10_arr m ρ c 1).trans (((dat5 (V9 m ρ) c).arrAt_in 1 rfl _).trans (A_eq5 (V9 m ρ) c 1))

/-- The host stretch before boundary 11 writes none of them. -/
theorem kept11 : ∀ b ∈ stable, W11 m ρ c (Proc.devRef .tc b) = W10 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals exact StableHlo.after_of_forall_not_mem _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 6 writes only its output array; an array it reads through an input window ends as it was entered. -/
theorem kept12 : ∀ b ∈ stable, W12 m ρ c (Proc.devRef .tc b) = W11 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact W12_of_ne m ρ c _ (by decide)
    | exact (W12_arr m ρ c 2).trans (((dat6 (V11 m ρ) c).arrAt_in 2 rfl _).trans (A_eq6 (V11 m ρ) c 2))

/-- Region 7 writes only its output array; an array it reads through an input window ends as it was entered. -/
theorem kept13 : ∀ b ∈ stable, W13 m ρ c (Proc.devRef .tc b) = W12 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact W13_of_ne m ρ c _ (by decide)
    | exact (W13_arr m ρ c 1).trans (((dat7 (V12 m ρ) c).arrAt_in 1 rfl _).trans (A_eq7 (V12 m ρ) c 1))

/-- The host stretch before boundary 14 writes none of them. -/
theorem kept14 : ∀ b ∈ stable, W14 m ρ c (Proc.devRef .tc b) = W13 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals exact StableHlo.after_of_forall_not_mem _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 8 writes only its output array; an array it reads through an input window ends as it was entered. -/
theorem kept15 : ∀ b ∈ stable, W15 m ρ c (Proc.devRef .tc b) = W14 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact W15_of_ne m ρ c _ (by decide)
    | exact (W15_arr m ρ c 2).trans (((dat8 (V14 m ρ) c).arrAt_in 2 rfl _).trans (A_eq8 (V14 m ρ) c 2))

/-- The host stretch before boundary 16 writes none of them. -/
theorem kept16 : ∀ b ∈ stable, W16 m ρ c (Proc.devRef .tc b) = W15 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals exact StableHlo.after_of_forall_not_mem _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 9 writes only its output array; an array it reads through an input window ends as it was entered. -/
theorem kept17 : ∀ b ∈ stable, W17 m ρ c (Proc.devRef .tc b) = W16 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact W17_of_ne m ρ c _ (by decide)
    | exact (W17_arr m ρ c 1).trans (((dat9 (V16 m ρ) c).arrAt_in 1 rfl _).trans (A_eq9 (V16 m ρ) c 1))

/-- The host stretch before boundary 18 writes none of them. -/
theorem kept18 : ∀ b ∈ stable, W18 m ρ c (Proc.devRef .tc b) = W17 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals exact StableHlo.after_of_forall_not_mem _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 10 writes only its output array; an array it reads through an input window ends as it was entered. -/
theorem kept19 : ∀ b ∈ stable, W19 m ρ c (Proc.devRef .tc b) = W18 m ρ c (Proc.devRef .tc b) := by
  intro b hb
  simp only [stable, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact W19_of_ne m ρ c _ (by decide)
    | exact (W19_arr m ρ c 1).trans (((dat10 (V18 m ρ) c).arrAt_in 1 rfl _).trans (A_eq10 (V18 m ρ) c 1))

/-- An argument array at the first boundary is the launch memory's. -/
theorem arg1 (b : Ref sig .tc) (hb : b ∈ args) : W1 m ρ c (Proc.devRef .tc b) = m ((c : Thread nD τ).loc b) :=
  kept1 m ρ c b hb

theorem at2 (b : Ref sig .tc) (hb : b ∈ stable) : W2 m ρ c (Proc.devRef .tc b) = W1 m ρ c (Proc.devRef .tc b) :=
  kept2 m ρ c b hb
theorem at3 (b : Ref sig .tc) (hb : b ∈ stable) : W3 m ρ c (Proc.devRef .tc b) = W1 m ρ c (Proc.devRef .tc b) :=
  (kept3 m ρ c b hb).trans (at2 m ρ c b hb)
theorem at4 (b : Ref sig .tc) (hb : b ∈ stable) : W4 m ρ c (Proc.devRef .tc b) = W1 m ρ c (Proc.devRef .tc b) :=
  (kept4 m ρ c b hb).trans (at3 m ρ c b hb)
theorem at5 (b : Ref sig .tc) (hb : b ∈ stable) : W5 m ρ c (Proc.devRef .tc b) = W1 m ρ c (Proc.devRef .tc b) :=
  (kept5 m ρ c b hb).trans (at4 m ρ c b hb)
theorem at6 (b : Ref sig .tc) (hb : b ∈ stable) : W6 m ρ c (Proc.devRef .tc b) = W1 m ρ c (Proc.devRef .tc b) :=
  (kept6 m ρ c b hb).trans (at5 m ρ c b hb)
theorem at7 (b : Ref sig .tc) (hb : b ∈ stable) : W7 m ρ c (Proc.devRef .tc b) = W1 m ρ c (Proc.devRef .tc b) :=
  (kept7 m ρ c b hb).trans (at6 m ρ c b hb)
theorem at8 (b : Ref sig .tc) (hb : b ∈ stable) : W8 m ρ c (Proc.devRef .tc b) = W1 m ρ c (Proc.devRef .tc b) :=
  (kept8 m ρ c b hb).trans (at7 m ρ c b hb)
theorem at9 (b : Ref sig .tc) (hb : b ∈ stable) : W9 m ρ c (Proc.devRef .tc b) = W1 m ρ c (Proc.devRef .tc b) :=
  (kept9 m ρ c b hb).trans (at8 m ρ c b hb)
theorem at10 (b : Ref sig .tc) (hb : b ∈ stable) : W10 m ρ c (Proc.devRef .tc b) = W1 m ρ c (Proc.devRef .tc b) :=
  (kept10 m ρ c b hb).trans (at9 m ρ c b hb)
theorem at11 (b : Ref sig .tc) (hb : b ∈ stable) : W11 m ρ c (Proc.devRef .tc b) = W1 m ρ c (Proc.devRef .tc b) :=
  (kept11 m ρ c b hb).trans (at10 m ρ c b hb)
theorem at12 (b : Ref sig .tc) (hb : b ∈ stable) : W12 m ρ c (Proc.devRef .tc b) = W1 m ρ c (Proc.devRef .tc b) :=
  (kept12 m ρ c b hb).trans (at11 m ρ c b hb)
theorem at13 (b : Ref sig .tc) (hb : b ∈ stable) : W13 m ρ c (Proc.devRef .tc b) = W1 m ρ c (Proc.devRef .tc b) :=
  (kept13 m ρ c b hb).trans (at12 m ρ c b hb)
theorem at14 (b : Ref sig .tc) (hb : b ∈ stable) : W14 m ρ c (Proc.devRef .tc b) = W1 m ρ c (Proc.devRef .tc b) :=
  (kept14 m ρ c b hb).trans (at13 m ρ c b hb)
theorem at15 (b : Ref sig .tc) (hb : b ∈ stable) : W15 m ρ c (Proc.devRef .tc b) = W1 m ρ c (Proc.devRef .tc b) :=
  (kept15 m ρ c b hb).trans (at14 m ρ c b hb)
theorem at16 (b : Ref sig .tc) (hb : b ∈ stable) : W16 m ρ c (Proc.devRef .tc b) = W1 m ρ c (Proc.devRef .tc b) :=
  (kept16 m ρ c b hb).trans (at15 m ρ c b hb)
theorem at17 (b : Ref sig .tc) (hb : b ∈ stable) : W17 m ρ c (Proc.devRef .tc b) = W1 m ρ c (Proc.devRef .tc b) :=
  (kept17 m ρ c b hb).trans (at16 m ρ c b hb)
theorem at18 (b : Ref sig .tc) (hb : b ∈ stable) : W18 m ρ c (Proc.devRef .tc b) = W1 m ρ c (Proc.devRef .tc b) :=
  (kept18 m ρ c b hb).trans (at17 m ρ c b hb)
theorem at19 (b : Ref sig .tc) (hb : b ∈ stable) : W19 m ρ c (Proc.devRef .tc b) = W1 m ρ c (Proc.devRef .tc b) :=
  (kept19 m ρ c b hb).trans (at18 m ρ c b hb)

end Cert.KernelIdeal.Kept

end
-- ==== Proof.LibVec.lean ====
/-
  Reads of vector operations at an index, at the ideal values (floats are extended reals), for
  arrays of `a` rows: general in the row count and program-free.

  * a length-`a` vector cast to a column `[a, 1]`, and a column broadcast along the rows to `[a, b]`
    (the two keepdims forms a row statistic goes through): `colCast_apply`, `colBroadcast_apply`;
  * a length-`b` vector cast to `[1, b]` and broadcast down the rows: `rowBroadcast_apply`;
  * the sum along the lanes of an `[a, b]` array at row `r` is `∑ k, x (r, k)`: `laneSum_apply`;
  * a matrix product into a zero accumulator at `(r, j)` is `∑ k, X (r, k) * Y (k, j)`, for any
    dimension-numbers record whose operand indices are the plain ones: `matmul_rowcol`;
  * `rsqrt_apply`, the pointwise read the library does not state.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibVec

open Idealize.ShloMosaic Idealize.ShloMosaic.ValueIdx

variable {α : Type}

/-- A length-`a` vector cast to the column `[a, 1]` reads, at `(r, u)`, the vector at `r`. -/
theorem colCast_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at `r`. -/
theorem colBroadcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A length-`b` vector cast to `[1, b]` and broadcast down `a` rows reads, at `(r, c)`, the vector at `c`. -/
theorem rowBroadcast_apply {a b : ℕ} (g : (⟨1, ![b]⟩ : Shape).Idx → α) (h1 : (⟨1, ![b]⟩ : Shape).ShapeCasts ⟨2, ![1, b]⟩)
    (h2 : (⟨2, ![1, b]⟩ : Shape).Broadcasts ⟨2, ![a, b]⟩) (r : Fin a) (c : Fin b) :
    broadcastTo ⟨2, ![a, b]⟩ (shapeCast ⟨2, ![1, b]⟩ g h1) h2 (ix2 r c) = g (ix1 c) := by
  rw [broadcastTo_1b_ab_apply, shapeCast_a_1a_apply]

/-- The sum along the lanes of an `[a, b]` array, at row `r`, is the sum of that row's entries. -/
theorem laneSum_apply {a b : ℕ} {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ x acc h hφ hacc (ix1 r) = ∑ k : Fin b, x (ix2 r k) := by
  rw [Ideal.multiReduction_add_single]
  refine Finset.sum_congr rfl fun k _ => congrArg x (funext fun ax => Fin.ext ?_)
  match ax with
  | ⟨0, _⟩ => rfl
  | ⟨1, _⟩ => rfl

/-- The same for an f32 array summed from the zero word, with the neutrality proof spelt as a printed program spells it. -/
theorem laneSum_f32_apply {a b : ℕ} (x : FVec Ideal ⟨2, ![a, b]⟩ .f32)
    (h : (⟨2, ![a, b]⟩ : Shape).Reduces [1] ⟨1, ![a]⟩) (hacc : (0x00000000#32 : BitVec 32) = 0x00000000#32) (r : Fin a) :
    multiReduction .add [1] ⟨1, ![a]⟩ x 0x00000000#32 h (.inl rfl) hacc (ix1 r) = ∑ k : Fin b, x (ix2 r k) :=
  laneSum_apply x _ h (.inl rfl) hacc r

/-- `rsqrt` of an array reads entry by entry. -/
theorem rsqrt_apply {s : Shape} {φ : FTy} (x : FVec Ideal s φ) (i : s.Idx) : rsqrt x i = Ideal.rsqrt (x i) := rfl

/-- A matrix product `X · Y` into a zero accumulator, at `(r, j)`, is `∑ k, X (r, k) * Y (k, j)`, for a
    dimension-numbers record with one contracted axis of extent `K` whose operand indices are the plain
    ones (row of the output and contraction index on the left; contraction index and column on the right). -/
theorem matmul_rowcol {n K m : ℕ} {φ₁ φ₂ : FTy} (d : DotDims ⟨2, ![n, K]⟩ ⟨2, ![K, m]⟩ ⟨2, ![n, m]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (X : FVec Ideal ⟨2, ![n, K]⟩ φ₁) (Y : FVec Ideal ⟨2, ![K, m]⟩ φ₂) (r : Fin n) (j : Fin m) :
    matmul d prec X Y (constant ⟨2, ![n, m]⟩ .f32 0x00000000#32) (ix2 r j) = ∑ k : Fin K, X (ix2 r k) * Y (ix2 k j) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 r j) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r j) ((contrEquiv1 d K hr hs).symm k) = ix2 k j := funext fun ax => Fin.ext (by
    match ax with
    | ⟨0, _⟩ => exact (hr0 _ _).trans hk
    | ⟨1, _⟩ => exact hr1 _ _)
  rw [el, er]

end Cert.LibVec

end
-- ==== Proof.LibDense.lean ====
/-
  Dense layers on the extended reals, program-free and general in the extents.

  The functions a graph-convolution stack is made of, as whole-array functions read entry by entry:
  * `mm X W`: the matrix product, entry `(r, j)` the sum over `k` of `X (r, k) * W (k, j)`;
  * `selfLoop agg h col row`: `agg + h * col + row` with `col` a column `[n, 1]` spread along the rows and
    `row` a one-row matrix `[1, m]` spread down the rows, grouped `(agg + h * col) + row`;
  * `relu`, `affine X W row = mm X W + row`, and `sigm`, the logistic function entry by entry.
  And the reads of vector expressions as these functions: a matrix product into a zero accumulator (in any float
  formats: a change of format is the identity on the extended reals), the combine `a + h * bcast col + bcast row`,
  a maximum with a broadcast scalar, a sum with a broadcast one-row matrix.
-/
import Idealize.ShloMosaic.PureOps.Ideal.Laws
import Idealize.ShloMosaic.Lib.ValueIdx
import Idealize.ShloMosaic.Lib.ValueLayout
import Idealize.ShloMosaic.Lib.Pipeline.Value
import proofs.«160709_j25048249270384_1_alg».proof.Proof.LibVec

noncomputable section

namespace Cert.Lib.Dense

open Idealize.ShloMosaic Idealize.ShloMosaic.ValueIdx

/-- An `n` by `m` array of extended reals. -/
abbrev Mat (n m : ℕ) : Type := (⟨2, ![n, m]⟩ : Shape).Idx → EReal

/-- The matrix product: entry `(r, j)` is the sum over `k` of `X (r, k) * W (k, j)`. -/
def mm {n K m : ℕ} (X : Mat n K) (W : Mat K m) : Mat n m :=
  fun i => ∑ k : Fin K, X (ix2 (i 0) k) * W (ix2 k (i 1))

/-- Aggregated neighbours plus the self-loop term plus the bias: `(agg + h * col) + row`, the column `col` read at
    the entry's row and the one-row matrix `row` at the entry's column. -/
def selfLoop {n m : ℕ} (agg h : Mat n m) (col : Mat n 1) (row : Mat 1 m) : Mat n m :=
  fun i => agg i + h i * col (ix2 (i 0) (0 : Fin 1)) + row (ix2 (0 : Fin 1) (i 1))

/-- The maximum with a constant `z`, entry by entry (`z` the zero of a rectifier). -/
def reluAt {n m : ℕ} (z : EReal) (x : Mat n m) : Mat n m := fun i => max (x i) z

/-- A dense layer with bias: the matrix product plus the one-row matrix `row` read at the entry's column. -/
def affine {n K m : ℕ} (X : Mat n K) (W : Mat K m) (row : Mat 1 m) : Mat n m :=
  fun i => mm X W i + row (ix2 (0 : Fin 1) (i 1))

/-- The logistic function entry by entry. -/
def sigm {n m : ℕ} (x : Mat n m) : Mat n m := fun i => Ideal.logistic (x i)

/-- A matrix product into a zero accumulator is `mm`, for a dimension-numbers record with one contracted axis whose
    operand indices are the plain ones. -/
theorem matmul_read {n K m : ℕ} {φ₁ φ₂ : FTy} (d : DotDims ⟨2, ![n, K]⟩ ⟨2, ![K, m]⟩ ⟨2, ![n, m]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (X : FVec Ideal ⟨2, ![n, K]⟩ φ₁) (Y : FVec Ideal ⟨2, ![K, m]⟩ φ₂) :
    matmul d prec X Y (constant ⟨2, ![n, m]⟩ .f32 0x00000000#32) = mm (n := n) (K := K) (m := m) X Y := by
  funext j
  obtain ⟨p, q, rfl⟩ : ∃ (p : Fin n) (q : Fin m), j = ix2 p q := ⟨j 0, j 1, eq_ix2 j⟩
  exact Cert.LibVec.matmul_rowcol d hr hs hl0 hl1 hr0 hr1 prec X Y p q

/-- The host's general dot product with one contracted axis and the plain operand indices is `mm` as well: on the
    extended reals it is the same sum, with no accumulator. -/
theorem dot_read {n K m : ℕ} {φ₁ φ₂ : FTy} (d : DotDims ⟨2, ![n, K]⟩ ⟨2, ![K, m]⟩ ⟨2, ![n, m]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (X : FVec Ideal ⟨2, ![n, K]⟩ φ₁) (Y : FVec Ideal ⟨2, ![K, m]⟩ φ₂) :
    Host.dotGeneral d prec X Y = mm (n := n) (K := K) (m := m) X Y := by
  funext j
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun ax => Fin.ext (by
    match ax with
    | ⟨0, _⟩ => exact hl0 _ _
    | ⟨1, _⟩ => exact (hl1 _ _).trans hk)
  have er : d.rhsIdx j ((contrEquiv1 d K hr hs).symm k) = ix2 k (j 1) := funext fun ax => Fin.ext (by
    match ax with
    | ⟨0, _⟩ => exact (hr0 _ _).trans hk
    | ⟨1, _⟩ => exact hr1 _ _)
  rw [el, er]
  rfl

/-- `(a + h * bcast col) + bcast row` is `selfLoop a h col row`. -/
theorem combine_read {n m : ℕ} (a h : FVec Ideal ⟨2, ![n, m]⟩ .f32) (col : FVec Ideal ⟨2, ![n, 1]⟩ .f32)
    (row : FVec Ideal ⟨2, ![1, m]⟩ .f32) (hc : (⟨2, ![n, 1]⟩ : Shape).Broadcasts ⟨2, ![n, m]⟩)
    (hw : (⟨2, ![1, m]⟩ : Shape).Broadcasts ⟨2, ![n, m]⟩) :
    addf (addf a (mulf h (broadcastTo ⟨2, ![n, m]⟩ col hc))) (broadcastTo ⟨2, ![n, m]⟩ row hw)
      = selfLoop (n := n) (m := m) a h col row := by
  funext j
  obtain ⟨p, q, rfl⟩ : ∃ (p : Fin n) (q : Fin m), j = ix2 p q := ⟨j 0, j 1, eq_ix2 j⟩
  show a (ix2 p q) + h (ix2 p q) * broadcastTo ⟨2, ![n, m]⟩ col hc (ix2 p q) + broadcastTo ⟨2, ![n, m]⟩ row hw (ix2 p q) = _
  rw [Cert.LibVec.colBroadcast_apply col hc p q, broadcastTo_1b_ab_apply row hw p q]
  rfl

/-- A vector made a column by a reshape is the vector made a column by a broadcast along a new unit axis: both read,
    at `(r, u)`, the vector at `r`. -/
theorem colCast_eq_bcast {α : Type} {a : ℕ} (v : (⟨1, ![a]⟩ : Shape).Idx → α) (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ v h = broadcastInDim ⟨2, ![a, 1]⟩ ![0] h' v := by
  funext i
  obtain ⟨r, u, rfl⟩ : ∃ (r : Fin a) (u : Fin 1), i = ix2 r u := ⟨i 0, i 1, eq_ix2 i⟩
  rw [Cert.LibVec.colCast_apply v h r u, broadcastInDim_apply ![0] h' v (ix2 r u) (ix1 r) (fun ax => by
    match ax with
    | ⟨0, _⟩ =>
      show r.val = if a = 1 then 0 else r.val
      split
      · have := r.isLt; omega
      · rfl)]

/-- A sum with a broadcast one-row matrix reads the row at the entry's column. -/
theorem addRow_read {n m : ℕ} (x : FVec Ideal ⟨2, ![n, m]⟩ .f32) (row : FVec Ideal ⟨2, ![1, m]⟩ .f32)
    (hw : (⟨2, ![1, m]⟩ : Shape).Broadcasts ⟨2, ![n, m]⟩) (j : (⟨2, ![n, m]⟩ : Shape).Idx) :
    addf x (broadcastTo ⟨2, ![n, m]⟩ row hw) j = x j + row (ix2 (0 : Fin 1) (j 1)) := by
  obtain ⟨p, q, rfl⟩ : ∃ (p : Fin n) (q : Fin m), j = ix2 p q := ⟨j 0, j 1, eq_ix2 j⟩
  show x (ix2 p q) + broadcastTo ⟨2, ![n, m]⟩ row hw (ix2 p q) = _
  rw [broadcastTo_1b_ab_apply row hw p q]
  rfl

end Cert.Lib.Dense

end
-- ==== Proof.RefLayers.lean ====
/-
  The reference, layer by layer, as dense-layer functions of its earlier stages.

  The reference is a stack of graph-convolution layers: a matrix product, a gather of the source rows scaled by the
  per-edge norm and scatter-added into the target rows, then the self-loop term, the bias and (on the first layer of
  the encoder and of the decoder) the rectifier; a dense layer with bias ends the encoder and the decoder, and the link
  predictor is a dense layer with bias under the logistic function. Here each matrix product is `mm`, each self-loop
  step is `selfLoop` of the stages before it, each biased layer is `affine`, and the logistic spelt
  1 / (1 + exp (-x)) is `sigm`. The gathers, the scatter-adds and the degree computation stay as the reference's own
  operations: both programs run the same ones.
-/
import proofs.«160709_j25048249270384_1_alg».proof.Defs
import proofs.«160709_j25048249270384_1_alg».proof.Proof.Gen.ReferenceIdeal.Read
import proofs.«160709_j25048249270384_1_alg».proof.Proof.LibDense

set_option maxRecDepth 16384

noncomputable section

namespace Cert.ReferenceIdeal.Layers

open Cert.ReferenceIdeal Cert.ReferenceIdeal.Gen Cert.ReferenceIdeal.Read
open Idealize.ShloMosaic Idealize.ShloMosaic.TcCoe Idealize.SL.Sem Idealize.ShloMosaic.ValueIdx Cert.Lib.Dense

/-- The reference's matrix product %12 is `mm` of its two operands. -/
theorem mm12 (x0 : (⟨S50000x128, .f32⟩ : BufTy).Contents (Elt Ideal)) (x2 : (⟨S128x128, .f32⟩ : BufTy).Contents (Elt Ideal)) :
    val_main_v12 (F := Ideal) x0 x2 = mm (n := 50000) (K := 128) (m := 128) (x0) x2 := by
  unfold val_main_v12
  exact dot_read dot_S50000x128_S128x128_S50000x128_1_0_0_1_n_n rfl rfl lhs_main_v12_0 lhs_main_v12_1 rhs_main_v12_0 rhs_main_v12_1 none _ _

/-- The reference's matrix product %50 is `mm` of its two operands. -/
theorem mm50 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) :
    val_main_v50 (F := Ideal) x0 x1 x2 x3 x4 = mm (n := 50000) (K := 128) (m := 64) (val_main_v49 (F := Ideal) x0 x1 x2 x3) x4 := by
  unfold val_main_v50
  exact dot_read dot_S50000x128_S128x64_S50000x64_1_0_0_1_n_n rfl rfl lhs_main_v50_0 lhs_main_v50_1 rhs_main_v50_0 rhs_main_v50_1 none _ _

/-- The reference's matrix product %91 is `mm` of its two operands. -/
theorem mm91 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x256, .f32⟩ : BufTy).Contents (Elt Ideal)) :
    val_main_v91 (F := Ideal) x0 x1 x2 x3 x4 x5 x6 x7 x8 = mm (n := 50000) (K := 64) (m := 256) (val_main_v90 (F := Ideal) x0 x1 x2 x3 x4 x5 x6 x7) x8 := by
  unfold val_main_v91
  exact dot_read dot_S50000x64_S64x256_S50000x256_1_0_0_1_n_n rfl rfl lhs_main_v91_0 lhs_main_v91_1 rhs_main_v91_0 rhs_main_v91_1 none _ _

/-- The reference's matrix product %129 is `mm` of its two operands. -/
theorem mm129 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x256, .f32⟩ : BufTy).Contents (Elt Ideal)) (x9 : (⟨S256, .f32⟩ : BufTy).Contents (Elt Ideal)) (x10 : (⟨S256x128, .f32⟩ : BufTy).Contents (Elt Ideal)) :
    val_main_v129 (F := Ideal) x0 x1 x2 x3 x4 x5 x6 x7 x8 x9 x10 = mm (n := 50000) (K := 256) (m := 128) (val_main_v128 (F := Ideal) x0 x1 x2 x3 x4 x5 x6 x7 x8 x9) x10 := by
  unfold val_main_v129
  exact dot_read dot_S50000x256_S256x128_S50000x128_1_0_0_1_n_n rfl rfl lhs_main_v129_0 lhs_main_v129_1 rhs_main_v129_0 rhs_main_v129_1 none _ _

/-- The reference's layer ending at %49: the aggregated neighbours plus the transformed features times the squared
    inverse square-root degree plus the bias, cut below at zero — `selfLoop` with the degree column and the bias row in the forms
    the kernel feeds its combine step (a reshaped column, a reshaped row). -/
theorem layer49 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
    (hcol : Cert.KernelIdeal.S50000.ShapeCasts Cert.KernelIdeal.S50000x1) (hrow : Cert.KernelIdeal.S128.ShapeCasts Cert.KernelIdeal.S1x128) :
    val_main_v49 (F := Ideal) x0 x1 x2 x3 = reluAt (Ideal.ofBits .f32 0x00000000#32) (selfLoop (n := 50000) (m := 128) (val_main_v40 (F := Ideal) x0 x1 x2) (val_main_v12 (F := Ideal) x0 x2) (shapeCast Cert.KernelIdeal.S50000x1 (val_main_v41 (F := Ideal) x1) hcol) (shapeCast Cert.KernelIdeal.S1x128 x3 hrow)) := by
  funext i
  obtain ⟨p, q, rfl⟩ : ∃ (p : Fin 50000) (q : Fin 128), i = ix2 p q := ⟨i 0, i 1, eq_ix2 i⟩
  have h1 : idx_main_v42 (idx_main_v43 (ix2 p q)) = ix1 p := funext fun a => Fin.ext (by match a with | ⟨0, _⟩ => rfl)
  have h2 : idx_main_v46 (idx_main_v47 (ix2 p q)) = ix1 q := funext fun a => Fin.ext (by match a with | ⟨0, _⟩ => rfl)
  have hc : (shapeCast Cert.KernelIdeal.S50000x1 (val_main_v41 (F := Ideal) x1) hcol) (ix2 p (0 : Fin 1)) = val_main_v41 (F := Ideal) x1 (ix1 p) := Cert.LibVec.colCast_apply _ _ p 0
  have hr : (shapeCast Cert.KernelIdeal.S1x128 x3 hrow) (ix2 (0 : Fin 1) q) = x3 (ix1 q) := shapeCast_a_1a_apply _ _ 0 q
  rw [val_main_v49_apply, val_main_v48_apply, val_main_v45_apply, val_main_v44_apply, val_main_v43_apply, val_main_v42_apply, val_main_v47_apply, val_main_v46_apply, val_main_call0_v0_apply, h1, h2]
  show _ = max (val_main_v40 (F := Ideal) x0 x1 x2 (ix2 p q) + val_main_v12 (F := Ideal) x0 x2 (ix2 p q) * (shapeCast Cert.KernelIdeal.S50000x1 (val_main_v41 (F := Ideal) x1) hcol) (ix2 p (0 : Fin 1)) + (shapeCast Cert.KernelIdeal.S1x128 x3 hrow) (ix2 (0 : Fin 1) q)) (Ideal.ofBits .f32 0x00000000#32)
  rw [hc, hr]
  rfl

/-- The reference's layer ending at %86: the aggregated neighbours plus the transformed features times the squared
    inverse square-root degree plus the bias — `selfLoop` with the degree column and the bias row in the forms
    the kernel feeds its combine step (a reshaped column, a reshaped row). -/
theorem layer86 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (hcol : Cert.KernelIdeal.S50000.ShapeCasts Cert.KernelIdeal.S50000x1) (hrow : Cert.KernelIdeal.S64.ShapeCasts Cert.KernelIdeal.S1x64) :
    val_main_v86 (F := Ideal) x0 x1 x2 x3 x4 x5 = selfLoop (n := 50000) (m := 64) (val_main_v78 (F := Ideal) x0 x1 x2 x3 x4) (val_main_v50 (F := Ideal) x0 x1 x2 x3 x4) (shapeCast Cert.KernelIdeal.S50000x1 (val_main_v41 (F := Ideal) x1) hcol) (shapeCast Cert.KernelIdeal.S1x64 x5 hrow) := by
  funext i
  obtain ⟨p, q, rfl⟩ : ∃ (p : Fin 50000) (q : Fin 64), i = ix2 p q := ⟨i 0, i 1, eq_ix2 i⟩
  have h1 : idx_main_v80 (idx_main_v81 (ix2 p q)) = ix1 p := funext fun a => Fin.ext (by match a with | ⟨0, _⟩ => rfl)
  have h2 : idx_main_v84 (idx_main_v85 (ix2 p q)) = ix1 q := funext fun a => Fin.ext (by match a with | ⟨0, _⟩ => rfl)
  have hc : (shapeCast Cert.KernelIdeal.S50000x1 (val_main_v41 (F := Ideal) x1) hcol) (ix2 p (0 : Fin 1)) = val_main_v41 (F := Ideal) x1 (ix1 p) := Cert.LibVec.colCast_apply _ _ p 0
  have hr : (shapeCast Cert.KernelIdeal.S1x64 x5 hrow) (ix2 (0 : Fin 1) q) = x5 (ix1 q) := shapeCast_a_1a_apply _ _ 0 q
  rw [val_main_v86_apply, val_main_v83_apply, val_main_v82_apply, val_main_v81_apply, val_main_v80_apply, val_main_v85_apply, val_main_v84_apply, h1, h2]
  show _ = val_main_v78 (F := Ideal) x0 x1 x2 x3 x4 (ix2 p q) + val_main_v50 (F := Ideal) x0 x1 x2 x3 x4 (ix2 p q) * (shapeCast Cert.KernelIdeal.S50000x1 (val_main_v41 (F := Ideal) x1) hcol) (ix2 p (0 : Fin 1)) + (shapeCast Cert.KernelIdeal.S1x64 x5 hrow) (ix2 (0 : Fin 1) q)
  rw [hc, hr]
  rfl

/-- The reference's layer ending at %128: the aggregated neighbours plus the transformed features times the squared
    inverse square-root degree plus the bias, cut below at zero — `selfLoop` with the degree column and the bias row in the forms
    the kernel feeds its combine step (a reshaped column, a reshaped row). -/
theorem layer128 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x256, .f32⟩ : BufTy).Contents (Elt Ideal)) (x9 : (⟨S256, .f32⟩ : BufTy).Contents (Elt Ideal))
    (hcol : Cert.KernelIdeal.S50000.ShapeCasts Cert.KernelIdeal.S50000x1) (hrow : Cert.KernelIdeal.S256.ShapeCasts Cert.KernelIdeal.S1x256) :
    val_main_v128 (F := Ideal) x0 x1 x2 x3 x4 x5 x6 x7 x8 x9 = reluAt (Ideal.ofBits .f32 0x00000000#32) (selfLoop (n := 50000) (m := 256) (val_main_v119 (F := Ideal) x0 x1 x2 x3 x4 x5 x6 x7 x8) (val_main_v91 (F := Ideal) x0 x1 x2 x3 x4 x5 x6 x7 x8) (shapeCast Cert.KernelIdeal.S50000x1 (val_main_v41 (F := Ideal) x1) hcol) (shapeCast Cert.KernelIdeal.S1x256 x9 hrow)) := by
  funext i
  obtain ⟨p, q, rfl⟩ : ∃ (p : Fin 50000) (q : Fin 256), i = ix2 p q := ⟨i 0, i 1, eq_ix2 i⟩
  have h1 : idx_main_v121 (idx_main_v122 (ix2 p q)) = ix1 p := funext fun a => Fin.ext (by match a with | ⟨0, _⟩ => rfl)
  have h2 : idx_main_v125 (idx_main_v126 (ix2 p q)) = ix1 q := funext fun a => Fin.ext (by match a with | ⟨0, _⟩ => rfl)
  have hc : (shapeCast Cert.KernelIdeal.S50000x1 (val_main_v41 (F := Ideal) x1) hcol) (ix2 p (0 : Fin 1)) = val_main_v41 (F := Ideal) x1 (ix1 p) := Cert.LibVec.colCast_apply _ _ p 0
  have hr : (shapeCast Cert.KernelIdeal.S1x256 x9 hrow) (ix2 (0 : Fin 1) q) = x9 (ix1 q) := shapeCast_a_1a_apply _ _ 0 q
  rw [val_main_v128_apply, val_main_v127_apply, val_main_v124_apply, val_main_v123_apply, val_main_v122_apply, val_main_v121_apply, val_main_v126_apply, val_main_v125_apply, val_main_call1_v0_apply, h1, h2]
  show _ = max (val_main_v119 (F := Ideal) x0 x1 x2 x3 x4 x5 x6 x7 x8 (ix2 p q) + val_main_v91 (F := Ideal) x0 x1 x2 x3 x4 x5 x6 x7 x8 (ix2 p q) * (shapeCast Cert.KernelIdeal.S50000x1 (val_main_v41 (F := Ideal) x1) hcol) (ix2 p (0 : Fin 1)) + (shapeCast Cert.KernelIdeal.S1x256 x9 hrow) (ix2 (0 : Fin 1) q)) (Ideal.ofBits .f32 0x00000000#32)
  rw [hc, hr]
  rfl

/-- The reference's layer ending at %165: the aggregated neighbours plus the transformed features times the squared
    inverse square-root degree plus the bias — `selfLoop` with the degree column and the bias row in the forms
    the kernel feeds its combine step (a reshaped column, a reshaped row). -/
theorem layer165 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal))
    (hcol : Cert.KernelIdeal.S50000.ShapeCasts Cert.KernelIdeal.S50000x1) (hrow : Cert.KernelIdeal.S128.ShapeCasts Cert.KernelIdeal.S1x128) :
    val_main_v165 (F := Ideal) x0 x1 x2 x3 x4 x5 x6 x7 x8 x9 x10 x11 = selfLoop (n := 50000) (m := 128) (val_main_v157 (F := Ideal) x0 x1 x2 x3 x4 x5 x6 x7 x8 x9 x10) (val_main_v129 (F := Ideal) x0 x1 x2 x3 x4 x5 x6 x7 x8 x9 x10) (shapeCast Cert.KernelIdeal.S50000x1 (val_main_v41 (F := Ideal) x1) hcol) (shapeCast Cert.KernelIdeal.S1x128 x11 hrow) := by
  funext i
  obtain ⟨p, q, rfl⟩ : ∃ (p : Fin 50000) (q : Fin 128), i = ix2 p q := ⟨i 0, i 1, eq_ix2 i⟩
  have h1 : idx_main_v159 (idx_main_v160 (ix2 p q)) = ix1 p := funext fun a => Fin.ext (by match a with | ⟨0, _⟩ => rfl)
  have h2 : idx_main_v163 (idx_main_v164 (ix2 p q)) = ix1 q := funext fun a => Fin.ext (by match a with | ⟨0, _⟩ => rfl)
  have hc : (shapeCast Cert.KernelIdeal.S50000x1 (val_main_v41 (F := Ideal) x1) hcol) (ix2 p (0 : Fin 1)) = val_main_v41 (F := Ideal) x1 (ix1 p) := Cert.LibVec.colCast_apply _ _ p 0
  have hr : (shapeCast Cert.KernelIdeal.S1x128 x11 hrow) (ix2 (0 : Fin 1) q) = x11 (ix1 q) := shapeCast_a_1a_apply _ _ 0 q
  rw [val_main_v165_apply, val_main_v162_apply, val_main_v161_apply, val_main_v160_apply, val_main_v159_apply, val_main_v164_apply, val_main_v163_apply, h1, h2]
  show _ = val_main_v157 (F := Ideal) x0 x1 x2 x3 x4 x5 x6 x7 x8 x9 x10 (ix2 p q) + val_main_v129 (F := Ideal) x0 x1 x2 x3 x4 x5 x6 x7 x8 x9 x10 (ix2 p q) * (shapeCast Cert.KernelIdeal.S50000x1 (val_main_v41 (F := Ideal) x1) hcol) (ix2 p (0 : Fin 1)) + (shapeCast Cert.KernelIdeal.S1x128 x11 hrow) (ix2 (0 : Fin 1) q)
  rw [hc, hr]
  rfl

/-- The reference's dense layer with bias ending at %90. -/
theorem dense90 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
    (hrow : Cert.KernelIdeal.S64.ShapeCasts Cert.KernelIdeal.S1x64) :
    val_main_v90 (F := Ideal) x0 x1 x2 x3 x4 x5 x6 x7 = affine (n := 50000) (K := 64) (m := 64) (val_main_v86 (F := Ideal) x0 x1 x2 x3 x4 x5) x6 (shapeCast Cert.KernelIdeal.S1x64 x7 hrow) := by
  funext i
  obtain ⟨p, q, rfl⟩ : ∃ (p : Fin 50000) (q : Fin 64), i = ix2 p q := ⟨i 0, i 1, eq_ix2 i⟩
  have h2 : idx_main_v88 (idx_main_v89 (ix2 p q)) = ix1 q := funext fun a => Fin.ext (by
    match a with
    | ⟨0, _⟩ => first | rfl | (have := q.isLt; show (0 : ℕ) = q.val; omega))
  have hr : (shapeCast Cert.KernelIdeal.S1x64 x7 hrow) (ix2 (0 : Fin 1) q) = x7 (ix1 q) := shapeCast_a_1a_apply _ _ 0 q
  have hd : val_main_v87 (F := Ideal) x0 x1 x2 x3 x4 x5 x6 = mm (n := 50000) (K := 64) (m := 64) (val_main_v86 (F := Ideal) x0 x1 x2 x3 x4 x5) x6 := by
    unfold val_main_v87
    exact dot_read dot_S50000x64_S64x64_S50000x64_1_0_0_1_n_n rfl rfl lhs_main_v87_0 lhs_main_v87_1 rhs_main_v87_0 rhs_main_v87_1 none _ _
  rw [val_main_v90_apply, val_main_v89_apply, val_main_v88_apply, h2, hd]
  show _ = mm (n := 50000) (K := 64) (m := 64) (val_main_v86 (F := Ideal) x0 x1 x2 x3 x4 x5) x6 (ix2 p q) + (shapeCast Cert.KernelIdeal.S1x64 x7 hrow) (ix2 (0 : Fin 1) q)
  rw [hr]
  rfl

/-- The reference's dense layer with bias ending at %169. -/
theorem dense169 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) (x12 : (⟨S128x1024, .f32⟩ : BufTy).Contents (Elt Ideal)) (x13 : (⟨S1024, .f32⟩ : BufTy).Contents (Elt Ideal))
    (hrow : Cert.KernelIdeal.S1024.ShapeCasts Cert.KernelIdeal.S1x1024) :
    val_main_v169 (F := Ideal) x0 x1 x2 x3 x4 x5 x6 x7 x8 x9 x10 x11 x12 x13 = affine (n := 50000) (K := 128) (m := 1024) (val_main_v165 (F := Ideal) x0 x1 x2 x3 x4 x5 x6 x7 x8 x9 x10 x11) x12 (shapeCast Cert.KernelIdeal.S1x1024 x13 hrow) := by
  funext i
  obtain ⟨p, q, rfl⟩ : ∃ (p : Fin 50000) (q : Fin 1024), i = ix2 p q := ⟨i 0, i 1, eq_ix2 i⟩
  have h2 : idx_main_v167 (idx_main_v168 (ix2 p q)) = ix1 q := funext fun a => Fin.ext (by
    match a with
    | ⟨0, _⟩ => first | rfl | (have := q.isLt; show (0 : ℕ) = q.val; omega))
  have hr : (shapeCast Cert.KernelIdeal.S1x1024 x13 hrow) (ix2 (0 : Fin 1) q) = x13 (ix1 q) := shapeCast_a_1a_apply _ _ 0 q
  have hd : val_main_v166 (F := Ideal) x0 x1 x2 x3 x4 x5 x6 x7 x8 x9 x10 x11 x12 = mm (n := 50000) (K := 128) (m := 1024) (val_main_v165 (F := Ideal) x0 x1 x2 x3 x4 x5 x6 x7 x8 x9 x10 x11) x12 := by
    unfold val_main_v166
    exact dot_read dot_S50000x128_S128x1024_S50000x1024_1_0_0_1_n_n rfl rfl lhs_main_v166_0 lhs_main_v166_1 rhs_main_v166_0 rhs_main_v166_1 none _ _
  rw [val_main_v169_apply, val_main_v168_apply, val_main_v167_apply, h2, hd]
  show _ = mm (n := 50000) (K := 128) (m := 1024) (val_main_v165 (F := Ideal) x0 x1 x2 x3 x4 x5 x6 x7 x8 x9 x10 x11) x12 (ix2 p q) + (shapeCast Cert.KernelIdeal.S1x1024 x13 hrow) (ix2 (0 : Fin 1) q)
  rw [hr]
  rfl

/-- The reference's dense layer with bias ending at %194, under the logistic function spelt as 1 / (1 + exp (-x)): on the extended
    reals that quotient IS the logistic function, and the literal of the numerator and of the summand denotes the real number one. -/
theorem link194 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x14 : (⟨S128x1, .f32⟩ : BufTy).Contents (Elt Ideal)) (x15 : (⟨S1, .f32⟩ : BufTy).Contents (Elt Ideal))
    (hrow : Cert.KernelIdeal.S1.ShapeCasts Cert.KernelIdeal.S1x1) :
    val_main_v194 (F := Ideal) x0 x1 x2 x3 x4 x5 x6 x7 x14 x15 = sigm (affine (n := 800000) (K := 128) (m := 1) (val_main_v184 (F := Ideal) x0 x1 x2 x3 x4 x5 x6 x7) x14 (shapeCast Cert.KernelIdeal.S1x1 x15 hrow)) := by
  funext i
  obtain ⟨p, q, rfl⟩ : ∃ (p : Fin 800000) (q : Fin 1), i = ix2 p q := ⟨i 0, i 1, eq_ix2 i⟩
  have h2 : idx_main_v186 (idx_main_v187 (ix2 p q)) = ix1 q := funext fun a => Fin.ext (by
    match a with
    | ⟨0, _⟩ => first | rfl | (have := q.isLt; show (0 : ℕ) = q.val; omega))
  have hr : (shapeCast Cert.KernelIdeal.S1x1 x15 hrow) (ix2 (0 : Fin 1) q) = x15 (ix1 q) := shapeCast_a_1a_apply _ _ 0 q
  have hd : val_main_v185 (F := Ideal) x0 x1 x2 x3 x4 x5 x6 x7 x14 = mm (n := 800000) (K := 128) (m := 1) (val_main_v184 (F := Ideal) x0 x1 x2 x3 x4 x5 x6 x7) x14 := by
    unfold val_main_v185
    exact dot_read dot_S800000x128_S128x1_S800000x1_1_0_0_1_n_n rfl rfl lhs_main_v185_0 lhs_main_v185_1 rhs_main_v185_0 rhs_main_v185_1 none _ _
  rw [val_main_v194_apply, val_main_v193_apply, val_main_cst_35_apply, val_main_v192_apply, val_main_v191_apply, val_main_cst_34_apply, val_main_v190_apply, val_main_v189_apply, val_main_v188_apply, val_main_v187_apply, val_main_v186_apply, h2, hd]
  have one : Ideal.ofBits .f32 0x3F800000#32 = 1 := IdealRules.sign_bit.ideal_onePat .f32
  have hr' : (shapeCast Cert.KernelIdeal.S1x1 x15 hrow) (ix2 (0 : Fin 1) ((ix2 p q) 1)) = x15 (ix1 q) := hr
  simp only [sigm, affine]
  rw [hr']
  simp only [Ideal.hostDivf_def, Ideal.addf_def, Ideal.hostUnary_exp_def, Ideal.hostNegf_def, Ideal.negf_def, Ideal.ofBits_def, one, Ideal.logistic]
end Cert.ReferenceIdeal.Layers

end
-- ==== Proof.Region0.lean ====
/-
  Region 0: a dense feature transform. Each grid point multiplies one block of 2000 rows of the node features
  (an array of 50000 rows and 128 columns) by the whole 128 by 128 weight matrix and writes the block of 2000 rows
  of the product. The 25 row blocks tile the rows, so after the region the output array is the matrix product of the
  two arrays the region found: entry (r, j) is the sum over k of X (r, k) * W (k, j) — a change of float format is the
  identity on the extended reals, and the accumulator starts from zero.
-/
import proofs.«160709_j25048249270384_1_alg».proof.Proof.Gen.KernelIdeal.Frame
import proofs.«160709_j25048249270384_1_alg».proof.Proof.LibDense

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx Cert.Lib.Dense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! The operand indices of the body's matrix product are the plain ones: the output's row and the contraction index on
    the left, the contraction index and the output's column on the right. -/
theorem dl0 (i) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dl1 (i) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem dr0 (i) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem dr1 (i) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's arithmetic is the matrix product of its two loaded blocks. -/
theorem pay (x0 : Vec Ideal S2000x128 .f32) (x1 : Vec Ideal S128x128 .f32) :
    k0_pay1 (F := Ideal) x0 x1 = mm (n := 2000) (K := 128) (m := 128) x0 x1 := by
  unfold k0_pay1
  exact matmul_read dot_S2000x128_S128x128_S2000x128_1_0_0_1_n_n rfl rfl dl0 dl1 dr0 dr1 none _ _

/-- The printed index maps, decided over the grid: the row-blocked windows sit at block (t, 0), the weights at (0, 0). -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- Every block index on the row axis is some grid point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The row blocks tile the array: row `r` is in the block of the point `r / 2000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- What point `t` writes back is block `t` of the matrix product of the two arrays as the region finds them. -/
theorem flushed_eq (c : Dev nD) (t : Fin cfg0.N) :
    (dat0 V c).flushed 2 t = ((cfg0.win 2).blk t).view.read (Elt Ideal)
      (mm (n := 50000) (K := 128) (m := 128) (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  rw [pay]
  obtain ⟨e0, e1, e2, e3, e4⟩ := idx_facts t
  funext j
  have hj0 : (j 0).val < 2000 := (j 0).isLt
  have hj1 : (j 1).val < 128 := (j 1).isLt
  have rX : ∀ k : Fin 128, iblk0 V c 0 t (ix2 (j 0) k) = V c main_arg0 (ix2 ((((cfg0.win 2).blk t).view.emb j) 0) k) := fun k => by
    show V c main_arg0 (((cfg0.win 0).blk t).view.emb (ix2 (j 0) k)) = _
    refine congrArg (V c main_arg0) (funext fun a => Fin.ext ?_)
    match a with
    | ⟨0, _⟩ => show win0_0.index t (0 : Fin 2) * 2000 + 1 * ((j 0)).val = win0_2.index t (0 : Fin 2) * 2000 + 1 * (j 0).val; omega
    | ⟨1, _⟩ => show win0_0.index t (1 : Fin 2) * 128 + 1 * (k).val = (k).val; omega
  have rW : ∀ k : Fin 128, iblk0 V c 1 t (ix2 k (j 1)) = V c main_arg2 (ix2 k ((((cfg0.win 2).blk t).view.emb j) 1)) := fun k => by
    show V c main_arg2 (((cfg0.win 1).blk t).view.emb (ix2 k (j 1))) = _
    refine congrArg (V c main_arg2) (funext fun a => Fin.ext ?_)
    match a with
    | ⟨0, _⟩ => show win0_1.index t (0 : Fin 2) * 128 + 1 * (k).val = (k).val; omega
    | ⟨1, _⟩ => show win0_1.index t (1 : Fin 2) * 128 + 1 * ((j 1)).val = win0_2.index t (1 : Fin 2) * 128 + 1 * (j 1).val; omega
  show mm (n := 2000) (K := 128) (m := 128) (iblk0 V c 0 t) (iblk0 V c 1 t) j
    = mm (n := 50000) (K := 128) (m := 128) (V c main_arg0) (V c main_arg2) (((cfg0.win 2).blk t).view.emb j)
  simp only [mm]
  exact Finset.sum_congr rfl fun k _ => congrArg₂ (fun a b : EReal => a * b) (rX k) (rW k)

/-- After the region its output array is the matrix product of the feature array and the weight matrix it found. -/
theorem final (c : Dev nD) : (dat0 V c).arrAt 2 cfg0.N
    = mm (n := 50000) (K := 128) (m := 128) (V c main_arg0) (V c main_arg2) :=
  (dat0 V c).arrAt_eq_of_cover 2 _ (fun t _ => flushed_eq V c t) cover

end Cert.KernelIdeal.Region0

end
-- ==== Proof.Region1.lean ====
/-
  Region 1: the self-loop, the bias and the rectifier of a graph-convolution layer. Each grid point takes one block of 2000 rows of the
  aggregated neighbour features and of the transformed features (arrays of 50000 rows and 128 columns), the matching 2000
  entries of the column of squared inverse square-root degrees, and the one-row bias, and writes
  (agg + h * d2) + b, cut below at zero, for that block. The 25 row blocks tile the rows, so after the region the output array is that
  expression of the four arrays the region found, entry by entry.
-/
import proofs.«160709_j25048249270384_1_alg».proof.Proof.Gen.KernelIdeal.Frame
import proofs.«160709_j25048249270384_1_alg».proof.Proof.LibDense

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx Cert.Lib.Dense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic, entry by entry. -/
theorem pay (x0 x1 : Vec Ideal S2000x128 .f32) (x2 : Vec Ideal S2000x1 .f32) (x3 : Vec Ideal S1x128 .f32) :
    k1_pay1 (F := Ideal) x0 x1 x2 x3 = reluAt (Ideal.ofBits .f32 0x00000000#32) (selfLoop (n := 2000) (m := 128) x0 x1 x2 x3) := by
  unfold k1_pay1
  simp only [shapeCast_self]
  rw [combine_read]
  rfl

/-- The printed index maps, decided over the grid: the row-blocked windows sit at block (t, 0), the bias at (0, 0). -/
theorem idx_facts : ∀ t : Fin cfg1.N, win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0 ∧ win1_4.index t (1 : Fin 2) = 0 :=
  (by decide +kernel : ∀ t : Fin grid1.N, _)

/-- Every block index on the row axis is some grid point's. -/
theorem idx_onto : ∀ q0 : Fin 25, ∃ t : Fin cfg1.N, win1_4.index t = ![q0.val, 0] :=
  (by decide +kernel : ∀ q0 : Fin 25, ∃ t : Fin grid1.N, win1_4.index t = ![q0.val, 0])

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v44).slice (win1_4.rect t)).set ↔ _
  rw [View.set_slice_whole, Rect.mem_set_unit]
  exact Iff.rfl

/-- The row blocks tile the array: row `r` is in the block of the point `r / 2000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- What point `t` writes back is block `t` of the layer's expression of the four arrays as the region finds them. -/
theorem flushed_eq (c : Dev nD) (t : Fin cfg1.N) :
    (dat1 V c).flushed 4 t = ((cfg1.win 4).blk t).view.read (Elt Ideal)
      (reluAt (Ideal.ofBits .f32 0x00000000#32) (selfLoop (n := 50000) (m := 128) (V c main_v42) (V c main_v30) (V c main_v13) (V c main_v43))) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  rw [pay]
  obtain ⟨e0, e1, e2, e3, e4, e5, e6, e7, e8⟩ := idx_facts t
  funext j
  have hj0 : (j 0).val < 2000 := (j 0).isLt
  have hj1 : (j 1).val < 128 := (j 1).isLt
  have r0 : iblk1 V c 0 t j = V c main_v42 (((cfg1.win 4).blk t).view.emb j) := by
    show V c main_v42 (((cfg1.win 0).blk t).view.emb j) = _
    refine congrArg (V c main_v42) (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * (j 1).val = win1_4.index t (1 : Fin 2) * 128 + 1 * (j 1).val; omega
  have r1 : iblk1 V c 1 t j = V c main_v30 (((cfg1.win 4).blk t).view.emb j) := by
    show V c main_v30 (((cfg1.win 1).blk t).view.emb j) = _
    refine congrArg (V c main_v30) (funext fun a => Fin.ext ?_)
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 128 + 1 * (j 1).val = win1_4.index t (1 : Fin 2) * 128 + 1 * (j 1).val; omega
  have r2 : iblk1 V c 2 t (ix2 (j 0) (0 : Fin 1)) = V c main_v13 (ix2 ((((cfg1.win 4).blk t).view.emb j) 0) (0 : Fin 1)) := by
    show V c main_v13 (((cfg1.win 2).blk t).view.emb (ix2 (j 0) (0 : Fin 1))) = _
    refine congrArg (V c main_v13) (funext fun a => Fin.ext ?_)
    match a with
    | ⟨0, _⟩ => show win1_2.index t (0 : Fin 2) * 2000 + 1 * ((j 0)).val = win1_4.index t (0 : Fin 2) * 2000 + 1 * (j 0).val; omega
    | ⟨1, _⟩ => show win1_2.index t (1 : Fin 2) * 1 + 1 * 0 = 0; omega
  have r3 : iblk1 V c 3 t (ix2 (0 : Fin 1) (j 1)) = V c main_v43 (ix2 (0 : Fin 1) ((((cfg1.win 4).blk t).view.emb j) 1)) := by
    show V c main_v43 (((cfg1.win 3).blk t).view.emb (ix2 (0 : Fin 1) (j 1))) = _
    refine congrArg (V c main_v43) (funext fun a => Fin.ext ?_)
    match a with
    | ⟨0, _⟩ => show win1_3.index t (0 : Fin 2) * 1 + 1 * 0 = 0; omega
    | ⟨1, _⟩ => show win1_3.index t (1 : Fin 2) * 128 + 1 * ((j 1)).val = win1_4.index t (1 : Fin 2) * 128 + 1 * (j 1).val; omega
  show reluAt (Ideal.ofBits .f32 0x00000000#32) (selfLoop (n := 2000) (m := 128) (iblk1 V c 0 t) (iblk1 V c 1 t) (iblk1 V c 2 t) (iblk1 V c 3 t)) j
    = reluAt (Ideal.ofBits .f32 0x00000000#32) (selfLoop (n := 50000) (m := 128) (V c main_v42) (V c main_v30) (V c main_v13) (V c main_v43)) (((cfg1.win 4).blk t).view.emb j)
  simp only [reluAt, selfLoop]
  exact congrArg (fun x : EReal => max x (Ideal.ofBits .f32 0x00000000#32)) (congrArg₂ (fun a b : EReal => a + b) (congrArg₂ (fun a b : EReal => a + b) r0 (congrArg₂ (fun a b : EReal => a * b) r1 r2)) r3)

/-- After the region its output array is the layer's expression of the four arrays it found. -/
theorem final (c : Dev nD) : (dat1 V c).arrAt 4 cfg1.N
    = reluAt (Ideal.ofBits .f32 0x00000000#32) (selfLoop (n := 50000) (m := 128) (V c main_v42) (V c main_v30) (V c main_v13) (V c main_v43)) :=
  (dat1 V c).arrAt_eq_of_cover 4 _ (fun t _ => flushed_eq V c t) cover

end Cert.KernelIdeal.Region1

end
-- ==== Proof.Region2.lean ====
/-
  Region 2: a dense feature transform. Each grid point multiplies one block of 2000 rows of the node features
  (an array of 50000 rows and 128 columns) by the whole 128 by 64 weight matrix and writes the block of 2000 rows
  of the product. The 25 row blocks tile the rows, so after the region the output array is the matrix product of the
  two arrays the region found: entry (r, j) is the sum over k of X (r, k) * W (k, j) — a change of float format is the
  identity on the extended reals, and the accumulator starts from zero.
-/
import proofs.«160709_j25048249270384_1_alg».proof.Proof.Gen.KernelIdeal.Frame
import proofs.«160709_j25048249270384_1_alg».proof.Proof.LibDense

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx Cert.Lib.Dense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! The operand indices of the body's matrix product are the plain ones: the output's row and the contraction index on
    the left, the contraction index and the output's column on the right. -/
theorem dl0 (i) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem dl1 (i) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem dr0 (i) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem dr1 (i) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's arithmetic is the matrix product of its two loaded blocks. -/
theorem pay (x0 : Vec Ideal S2000x128 .f32) (x1 : Vec Ideal S128x64 .f32) :
    k2_pay1 (F := Ideal) x0 x1 = mm (n := 2000) (K := 128) (m := 64) x0 x1 := by
  unfold k2_pay1
  simp only [shapeCast_self]
  exact matmul_read dot_S2000x128_S128x64_S2000x64_1_0_0_1_n_n rfl rfl dl0 dl1 dr0 dr1 none _ _

/-- The printed index maps, decided over the grid: the row-blocked windows sit at block (t, 0), the weights at (0, 0). -/
theorem idx_facts : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 :=
  (by decide +kernel : ∀ t : Fin grid2.N, _)

/-- Every block index on the row axis is some grid point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- An index of the array is in point `t`'s block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v45).slice (win2_2.rect t)).set ↔ _
  rw [View.set_slice_whole, Rect.mem_set_unit]
  exact Iff.rfl

/-- The row blocks tile the array: row `r` is in the block of the point `r / 2000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- What point `t` writes back is block `t` of the matrix product of the two arrays as the region finds them. -/
theorem flushed_eq (c : Dev nD) (t : Fin cfg2.N) :
    (dat2 V c).flushed 2 t = ((cfg2.win 2).blk t).view.read (Elt Ideal)
      (mm (n := 50000) (K := 128) (m := 64) (V c main_v44) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  rw [pay]
  obtain ⟨e0, e1, e2, e3, e4⟩ := idx_facts t
  funext j
  have hj0 : (j 0).val < 2000 := (j 0).isLt
  have hj1 : (j 1).val < 64 := (j 1).isLt
  have rX : ∀ k : Fin 128, iblk2 V c 0 t (ix2 (j 0) k) = V c main_v44 (ix2 ((((cfg2.win 2).blk t).view.emb j) 0) k) := fun k => by
    show V c main_v44 (((cfg2.win 0).blk t).view.emb (ix2 (j 0) k)) = _
    refine congrArg (V c main_v44) (funext fun a => Fin.ext ?_)
    match a with
    | ⟨0, _⟩ => show win2_0.index t (0 : Fin 2) * 2000 + 1 * ((j 0)).val = win2_2.index t (0 : Fin 2) * 2000 + 1 * (j 0).val; omega
    | ⟨1, _⟩ => show win2_0.index t (1 : Fin 2) * 128 + 1 * (k).val = (k).val; omega
  have rW : ∀ k : Fin 128, iblk2 V c 1 t (ix2 k (j 1)) = V c main_arg4 (ix2 k ((((cfg2.win 2).blk t).view.emb j) 1)) := fun k => by
    show V c main_arg4 (((cfg2.win 1).blk t).view.emb (ix2 k (j 1))) = _
    refine congrArg (V c main_arg4) (funext fun a => Fin.ext ?_)
    match a with
    | ⟨0, _⟩ => show win2_1.index t (0 : Fin 2) * 128 + 1 * (k).val = (k).val; omega
    | ⟨1, _⟩ => show win2_1.index t (1 : Fin 2) * 64 + 1 * ((j 1)).val = win2_2.index t (1 : Fin 2) * 64 + 1 * (j 1).val; omega
  show mm (n := 2000) (K := 128) (m := 64) (iblk2 V c 0 t) (iblk2 V c 1 t) j
    = mm (n := 50000) (K := 128) (m := 64) (V c main_v44) (V c main_arg4) (((cfg2.win 2).blk t).view.emb j)
  simp only [mm]
  exact Finset.sum_congr rfl fun k _ => congrArg₂ (fun a b : EReal => a * b) (rX k) (rW k)

/-- After the region its output array is the matrix product of the feature array and the weight matrix it found. -/
theorem final (c : Dev nD) : (dat2 V c).arrAt 2 cfg2.N
    = mm (n := 50000) (K := 128) (m := 64) (V c main_v44) (V c main_arg4) :=
  (dat2 V c).arrAt_eq_of_cover 2 _ (fun t _ => flushed_eq V c t) cover

end Cert.KernelIdeal.Region2

end
-- ==== Proof.Region3.lean ====
/-
  Region 3: the self-loop, the bias of a graph-convolution layer. Each grid point takes one block of 2000 rows of the
  aggregated neighbour features and of the transformed features (arrays of 50000 rows and 64 columns), the matching 2000
  entries of the column of squared inverse square-root degrees, and the one-row bias, and writes
  (agg + h * d2) + b for that block. The 25 row blocks tile the rows, so after the region the output array is that
  expression of the four arrays the region found, entry by entry.
-/
import proofs.«160709_j25048249270384_1_alg».proof.Proof.Gen.KernelIdeal.Frame
import proofs.«160709_j25048249270384_1_alg».proof.Proof.LibDense

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx Cert.Lib.Dense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic, entry by entry. -/
theorem pay (x0 x1 : Vec Ideal S2000x64 .f32) (x2 : Vec Ideal S2000x1 .f32) (x3 : Vec Ideal S1x64 .f32) :
    k3_pay1 (F := Ideal) x0 x1 x2 x3 = selfLoop (n := 2000) (m := 64) x0 x1 x2 x3 := by
  unfold k3_pay1
  simp only [shapeCast_self]
  exact combine_read _ _ _ _ _ _

/-- The printed index maps, decided over the grid: the row-blocked windows sit at block (t, 0), the bias at (0, 0). -/
theorem idx_facts : ∀ t : Fin cfg3.N, win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0 ∧ win3_4.index t (1 : Fin 2) = 0 :=
  (by decide +kernel : ∀ t : Fin grid3.N, _)

/-- Every block index on the row axis is some grid point's. -/
theorem idx_onto : ∀ q0 : Fin 25, ∃ t : Fin cfg3.N, win3_4.index t = ![q0.val, 0] :=
  (by decide +kernel : ∀ q0 : Fin 25, ∃ t : Fin grid3.N, win3_4.index t = ![q0.val, 0])

/-- An index of the array is in point `t`'s block iff each coordinate is in the block's range on its axis. -/
theorem mem_blk (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v59).slice (win3_4.rect t)).set ↔ _
  rw [View.set_slice_whole, Rect.mem_set_unit]
  exact Iff.rfl

/-- The row blocks tile the array: row `r` is in the block of the point `r / 2000`. -/
theorem cover (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := idx_onto ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 64 ≤ (i 1).val ∧ (i 1).val < win3_4.index t (1 : Fin 2) * 64 + 64; omega

/-- What point `t` writes back is block `t` of the layer's expression of the four arrays as the region finds them. -/
theorem flushed_eq (c : Dev nD) (t : Fin cfg3.N) :
    (dat3 V c).flushed 4 t = ((cfg3.win 4).blk t).view.read (Elt Ideal)
      (selfLoop (n := 50000) (m := 64) (V c main_v57) (V c main_v45) (V c main_v13) (V c main_v58)) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  rw [pay]
  obtain ⟨e0, e1, e2, e3, e4, e5, e6, e7, e8⟩ := idx_facts t
  funext j
  have hj0 : (j 0).val < 2000 := (j 0).isLt
  have hj1 : (j 1).val < 64 := (j 1).isLt
  have r0 : iblk3 V c 0 t j = V c main_v57 (((cfg3.win 4).blk t).view.emb j) := by
    show V c main_v57 (((cfg3.win 0).blk t).view.emb j) = _
    refine congrArg (V c main_v57) (funext fun a => Fin.ext ?_)
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 64 + 1 * (j 1).val = win3_4.index t (1 : Fin 2) * 64 + 1 * (j 1).val; omega
  have r1 : iblk3 V c 1 t j = V c main_v45 (((cfg3.win 4).blk t).view.emb j) := by
    show V c main_v45 (((cfg3.win 1).blk t).view.emb j) = _
    refine congrArg (V c main_v45) (funext fun a => Fin.ext ?_)
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 64 + 1 * (j 1).val = win3_4.index t (1 : Fin 2) * 64 + 1 * (j 1).val; omega
  have r2 : iblk3 V c 2 t (ix2 (j 0) (0 : Fin 1)) = V c main_v13 (ix2 ((((cfg3.win 4).blk t).view.emb j) 0) (0 : Fin 1)) := by
    show V c main_v13 (((cfg3.win 2).blk t).view.emb (ix2 (j 0) (0 : Fin 1))) = _
    refine congrArg (V c main_v13) (funext fun a => Fin.ext ?_)
    match a with
    | ⟨0, _⟩ => show win3_2.index t (0 : Fin 2) * 2000 + 1 * ((j 0)).val = win3_4.index t (0 : Fin 2) * 2000 + 1 * (j 0).val; omega
    | ⟨1, _⟩ => show win3_2.index t (1 : Fin 2) * 1 + 1 * 0 = 0; omega
  have r3 : iblk3 V c 3 t (ix2 (0 : Fin 1) (j 1)) = V c main_v58 (ix2 (0 : Fin 1) ((((cfg3.win 4).blk t).view.emb j) 1)) := by
    show V c main_v58 (((cfg3.win 3).blk t).view.emb (ix2 (0 : Fin 1) (j 1))) = _
    refine congrArg (V c main_v58) (funext fun a => Fin.ext ?_)
    match a with
    | ⟨0, _⟩ => show win3_3.index t (0 : Fin 2) * 1 + 1 * 0 = 0; omega
    | ⟨1, _⟩ => show win3_3.index t (1 : Fin 2) * 64 + 1 * ((j 1)).val = win3_4.index t (1 : Fin 2) * 64 + 1 * (j 1).val; omega
  show selfLoop (n := 2000) (m := 64) (iblk3 V c 0 t) (iblk3 V c 1 t) (iblk3 V c 2 t) (iblk3 V c 3 t) j
    = selfLoop (n := 50000) (m := 64) (V c main_v57) (V c main_v45) (V c main_v13) (V c main_v58) (((cfg3.win 4).blk t).view.emb j)
  simp only [selfLoop]
  exact congrArg₂ (fun a b : EReal => a + b) (congrArg₂ (fun a b : EReal => a + b) r0 (congrArg₂ (fun a b : EReal => a * b) r1 r2)) r3

/-- After the region its output array is the layer's expression of the four arrays it found. -/
theorem final (c : Dev nD) : (dat3 V c).arrAt 4 cfg3.N
    = selfLoop (n := 50000) (m := 64) (V c main_v57) (V c main_v45) (V c main_v13) (V c main_v58) :=
  (dat3 V c).arrAt_eq_of_cover 4 _ (fun t _ => flushed_eq V c t) cover

end Cert.KernelIdeal.Region3

end
-- ==== Proof.Region4.lean ====
/-
  Region 4: a dense layer with bias. Each grid point multiplies one block of 2000 rows of its
  input (an array of 50000 rows and 64 columns) by the whole 64 by 64 weight matrix, adds the one-row bias and
  writes the block of 2000 rows. The 25 row blocks tile the rows, so after the region the output array is
  X W + b of the three arrays the region found, entry by entry.
-/
import proofs.«160709_j25048249270384_1_alg».proof.Proof.Gen.KernelIdeal.Frame
import proofs.«160709_j25048249270384_1_alg».proof.Proof.LibDense

set_option maxRecDepth 16384

noncomputable section

namespace Cert.KernelIdeal.Region4

open Cert.KernelIdeal Cert.KernelIdeal.Gen
open Idealize.ShloMosaic Idealize.ShloMosaic.TcCoe Idealize.SL.Sem Idealize.ShloMosaic.ValueIdx Cert.Lib.Dense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! The operand indices of the body's matrix product are the plain ones: the output's row and the contraction index on
    the left, the contraction index and the output's column on the right. -/
theorem dl0 (i) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem dl1 (i) (q : dot_S2000x64_S64x64_S2000x64_1_0_0_1_n_n.contr.Idx) : (dot_S2000x64_S64x64_S2000x64_1_0_0_1_n_n.lhsIdx i q 1).val = (q ⟨0, by decide⟩).val :=
  dot_S2000x64_S64x64_S2000x64_1_0_0_1_n_n.lhsIdx_val_of_single rfl i q
theorem dr0 (i) (q : dot_S2000x64_S64x64_S2000x64_1_0_0_1_n_n.contr.Idx) : (dot_S2000x64_S64x64_S2000x64_1_0_0_1_n_n.rhsIdx i q 0).val = (q ⟨0, by decide⟩).val :=
  dot_S2000x64_S64x64_S2000x64_1_0_0_1_n_n.rhsIdx_val_of_single rfl i q
theorem dr1 (i) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The body's arithmetic: the matrix product of the two loaded blocks plus the bias row. -/
theorem pay (x0 : Vec Ideal S2000x64 .f32) (x1 : Vec Ideal S64x64 .f32) (x2 : Vec Ideal S1x64 .f32) :
    k4_pay1 (F := Ideal) x0 x1 x2 = affine (n := 2000) (K := 64) (m := 64) x0 x1 x2 := by
  unfold k4_pay1
  simp only [shapeCast_self]
  funext j
  refine (addRow_read _ x2 _ j).trans ?_
  rw [matmul_read dot_S2000x64_S64x64_S2000x64_1_0_0_1_n_n rfl rfl dl0 dl1 dr0 dr1]
  rfl

/-- The printed index maps, decided over the grid: the row-blocked windows sit at block (t, 0), the weights and the bias at (0, 0). -/
theorem idx_facts : ∀ t : Fin cfg4.N, win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 ∧ win4_3.index t (1 : Fin 2) = 0 :=
  (by decide +kernel : ∀ t : Fin grid4.N, _)

/-- Every block index on the row axis is some grid point's. -/
theorem idx_onto : ∀ q0 : Fin 25, ∃ t : Fin cfg4.N, win4_3.index t = ![q0.val, 0] :=
  (by decide +kernel : ∀ q0 : Fin 25, ∃ t : Fin grid4.N, win4_3.index t = ![q0.val, 0])

/-- An index of the array is in point `t`'s block iff each coordinate is in the block's range on its axis. -/
theorem mem_blk (t : Fin cfg4.N) (i : S50000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v61).slice (win4_3.rect t)).set ↔ _
  rw [View.set_slice_whole, Rect.mem_set_unit]
  exact Iff.rfl

/-- The row blocks tile the array: row `r` is in the block of the point `r / 2000`. -/
theorem cover (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ := idx_onto ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 64 ≤ (i 1).val ∧ (i 1).val < win4_3.index t (1 : Fin 2) * 64 + 64; omega

/-- What point `t` writes back is block `t` of the layer's expression of the three arrays as the region finds them. -/
theorem flushed_eq (c : Dev nD) (t : Fin cfg4.N) :
    (dat4 V c).flushed 3 t = ((cfg4.win 3).blk t).view.read (Elt Ideal)
      (affine (n := 50000) (K := 64) (m := 64) (V c main_v59) (V c main_arg6) (V c main_v60)) := by
  show (cfg4.win 3).cut (grid4.coords t) ((dat4 V c).after 3 t) = _
  rw [after4_3]
  unfold out4_3
  rw [View.canon_unit_zero hz]
  simp only [View.ld_unit_zero (S := S2000x64) hz, View.ld_unit_zero (S := S64x64) hz, View.ld_unit_zero (S := S1x64) hz]
  rw [pay]
  obtain ⟨e0, e1, e2, e3, e4, e5, e6⟩ := idx_facts t
  funext j
  have hj0 : (j 0).val < 2000 := (j 0).isLt
  have hj1 : (j 1).val < 64 := (j 1).isLt
  have rX : ∀ k : Fin 64, iblk4 V c 0 t (ix2 (j 0) k) = V c main_v59 (ix2 ((((cfg4.win 3).blk t).view.emb j) 0) k) := fun k => by
    show V c main_v59 (((cfg4.win 0).blk t).view.emb (ix2 (j 0) k)) = _
    refine congrArg (V c main_v59) (funext fun a => Fin.ext ?_)
    match a with
    | ⟨0, _⟩ => show win4_0.index t (0 : Fin 2) * 2000 + 1 * ((j 0)).val = win4_3.index t (0 : Fin 2) * 2000 + 1 * (j 0).val; omega
    | ⟨1, _⟩ => show win4_0.index t (1 : Fin 2) * 64 + 1 * (k).val = (k).val; omega
  have rW : ∀ k : Fin 64, iblk4 V c 1 t (ix2 k (j 1)) = V c main_arg6 (ix2 k ((((cfg4.win 3).blk t).view.emb j) 1)) := fun k => by
    show V c main_arg6 (((cfg4.win 1).blk t).view.emb (ix2 k (j 1))) = _
    refine congrArg (V c main_arg6) (funext fun a => Fin.ext ?_)
    match a with
    | ⟨0, _⟩ => show win4_1.index t (0 : Fin 2) * 64 + 1 * (k).val = (k).val; omega
    | ⟨1, _⟩ => show win4_1.index t (1 : Fin 2) * 64 + 1 * ((j 1)).val = win4_3.index t (1 : Fin 2) * 64 + 1 * (j 1).val; omega
  have rb : iblk4 V c 2 t (ix2 (0 : Fin 1) (j 1)) = V c main_v60 (ix2 (0 : Fin 1) ((((cfg4.win 3).blk t).view.emb j) 1)) := by
    show V c main_v60 (((cfg4.win 2).blk t).view.emb (ix2 (0 : Fin 1) (j 1))) = _
    refine congrArg (V c main_v60) (funext fun a => Fin.ext ?_)
    match a with
    | ⟨0, _⟩ => show win4_2.index t (0 : Fin 2) * 1 + 1 * 0 = 0; omega
    | ⟨1, _⟩ => show win4_2.index t (1 : Fin 2) * 64 + 1 * ((j 1)).val = win4_3.index t (1 : Fin 2) * 64 + 1 * (j 1).val; omega
  show affine (n := 2000) (K := 64) (m := 64) (iblk4 V c 0 t) (iblk4 V c 1 t) (iblk4 V c 2 t) j
    = affine (n := 50000) (K := 64) (m := 64) (V c main_v59) (V c main_arg6) (V c main_v60) (((cfg4.win 3).blk t).view.emb j)
  simp only [affine, mm]
  exact congrArg₂ (fun a b : EReal => a + b) (Finset.sum_congr rfl fun k _ => congrArg₂ (fun a b : EReal => a * b) (rX k) (rW k)) rb

/-- After the region its output array is the layer's expression of the three arrays it found. -/
theorem final (c : Dev nD) : (dat4 V c).arrAt 3 cfg4.N
    = affine (n := 50000) (K := 64) (m := 64) (V c main_v59) (V c main_arg6) (V c main_v60) :=
  (dat4 V c).arrAt_eq_of_cover 3 _ (fun t _ => flushed_eq V c t) cover

end Cert.KernelIdeal.Region4

end
-- ==== Proof.Region5.lean ====
/-
  Region 5: a dense feature transform. Each grid point multiplies one block of 2000 rows of the node features
  (an array of 50000 rows and 64 columns) by the whole 64 by 256 weight matrix and writes the block of 2000 rows
  of the product. The 25 row blocks tile the rows, so after the region the output array is the matrix product of the
  two arrays the region found: entry (r, j) is the sum over k of X (r, k) * W (k, j) — a change of float format is the
  identity on the extended reals, and the accumulator starts from zero.
-/
import proofs.«160709_j25048249270384_1_alg».proof.Proof.Gen.KernelIdeal.Frame
import proofs.«160709_j25048249270384_1_alg».proof.Proof.LibDense

set_option maxRecDepth 16384

noncomputable section

namespace Cert.KernelIdeal.Region5

open Cert.KernelIdeal Cert.KernelIdeal.Gen
open Idealize.ShloMosaic Idealize.ShloMosaic.TcCoe Idealize.SL.Sem Idealize.ShloMosaic.ValueIdx Cert.Lib.Dense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! The operand indices of the body's matrix product are the plain ones: the output's row and the contraction index on
    the left, the contraction index and the output's column on the right. -/
theorem dl0 (i) (q : dot_S2000x64_S64x256_S2000x256_1_0_0_1_n_n.contr.Idx) : (dot_S2000x64_S64x256_S2000x256_1_0_0_1_n_n.lhsIdx i q 0).val = (i 0).val := by
  unfold DotDims.lhsIdx
  rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
  rfl
theorem dl1 (i) (q : dot_S2000x64_S64x256_S2000x256_1_0_0_1_n_n.contr.Idx) : (dot_S2000x64_S64x256_S2000x256_1_0_0_1_n_n.lhsIdx i q 1).val = (q ⟨0, by decide⟩).val :=
  dot_S2000x64_S64x256_S2000x256_1_0_0_1_n_n.lhsIdx_val_of_single rfl i q
theorem dr0 (i) (q : dot_S2000x64_S64x256_S2000x256_1_0_0_1_n_n.contr.Idx) : (dot_S2000x64_S64x256_S2000x256_1_0_0_1_n_n.rhsIdx i q 0).val = (q ⟨0, by decide⟩).val :=
  dot_S2000x64_S64x256_S2000x256_1_0_0_1_n_n.rhsIdx_val_of_single rfl i q
theorem dr1 (i) (q : dot_S2000x64_S64x256_S2000x256_1_0_0_1_n_n.contr.Idx) : (dot_S2000x64_S64x256_S2000x256_1_0_0_1_n_n.rhsIdx i q 1).val = (i 1).val := by
  unfold DotDims.rhsIdx
  rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
  rfl

/-- The body's arithmetic is the matrix product of its two loaded blocks. -/
theorem pay (x0 : Vec Ideal S2000x64 .f32) (x1 : Vec Ideal S64x256 .f32) :
    k5_pay1 (F := Ideal) x0 x1 = mm (n := 2000) (K := 64) (m := 256) x0 x1 := by
  unfold k5_pay1
  simp only [shapeCast_self]
  exact matmul_read dot_S2000x64_S64x256_S2000x256_1_0_0_1_n_n rfl rfl dl0 dl1 dr0 dr1 none _ _

/-- The printed index maps, decided over the grid: the row-blocked windows sit at block (t, 0), the weights at (0, 0). -/
theorem idx_facts : ∀ t : Fin cfg5.N, win5_0.index t (0 : Fin 2) = win5_2.index t (0 : Fin 2) ∧ win5_0.index t (1 : Fin 2) = 0
    ∧ win5_1.index t (0 : Fin 2) = 0 ∧ win5_1.index t (1 : Fin 2) = 0 ∧ win5_2.index t (1 : Fin 2) = 0 :=
  (by decide +kernel : ∀ t : Fin grid5.N, _)

/-- Every block index on the row axis is some grid point's. -/
theorem idx_onto : ∀ q0 : Fin 25, ∃ t : Fin cfg5.N, win5_2.index t = ![q0.val, 0] :=
  (by decide +kernel : ∀ q0 : Fin 25, ∃ t : Fin grid5.N, win5_2.index t = ![q0.val, 0])

/-- An index of the array is in point `t`'s block iff each coordinate is in the block's range on its axis. -/
theorem mem_blk (t : Fin cfg5.N) (i : S50000x256.Idx) :
    i ∈ ((cfg5.win 2).blk t).view.set ↔ ∀ a : Fin 2, win5_2.index t a * S2000x256.size a ≤ (i a).val ∧ (i a).val < win5_2.index t a * S2000x256.size a + S2000x256.size a := by
  show i ∈ ((View.whole main_v62).slice (win5_2.rect t)).set ↔ _
  rw [View.set_slice_whole, Rect.mem_set_unit]
  exact Iff.rfl

/-- The row blocks tile the array: row `r` is in the block of the point `r / 2000`. -/
theorem cover (i : S50000x256.Idx) : ∃ t : Fin cfg5.N, (cfg5.win 2).flush t = true ∧ i ∈ ((cfg5.win 2).blk t).view.set := by
  have hi0 : (i 0).val < 50000 := (i 0).isLt
  have hi1 : (i 1).val < 256 := (i 1).isLt
  obtain ⟨t, ht⟩ := idx_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 256 ≤ (i 1).val ∧ (i 1).val < win5_2.index t (1 : Fin 2) * 256 + 256; omega

/-- What point `t` writes back is block `t` of the matrix product of the two arrays as the region finds them. -/
theorem flushed_eq (c : Dev nD) (t : Fin cfg5.N) :
    (dat5 V c).flushed 2 t = ((cfg5.win 2).blk t).view.read (Elt Ideal)
      (mm (n := 50000) (K := 64) (m := 256) (V c main_v61) (V c main_arg8)) := by
  show (cfg5.win 2).cut (grid5.coords t) ((dat5 V c).after 2 t) = _
  rw [after5_2]
  unfold out5_2
  rw [View.canon_unit_zero hz]
  simp only [View.ld_unit_zero (S := S2000x64) hz, View.ld_unit_zero (S := S64x256) hz]
  rw [pay]
  obtain ⟨e0, e1, e2, e3, e4⟩ := idx_facts t
  funext j
  have hj0 : (j 0).val < 2000 := (j 0).isLt
  have hj1 : (j 1).val < 256 := (j 1).isLt
  have rX : ∀ k : Fin 64, iblk5 V c 0 t (ix2 (j 0) k) = V c main_v61 (ix2 ((((cfg5.win 2).blk t).view.emb j) 0) k) := fun k => by
    show V c main_v61 (((cfg5.win 0).blk t).view.emb (ix2 (j 0) k)) = _
    refine congrArg (V c main_v61) (funext fun a => Fin.ext ?_)
    match a with
    | ⟨0, _⟩ => show win5_0.index t (0 : Fin 2) * 2000 + 1 * ((j 0)).val = win5_2.index t (0 : Fin 2) * 2000 + 1 * (j 0).val; omega
    | ⟨1, _⟩ => show win5_0.index t (1 : Fin 2) * 64 + 1 * (k).val = (k).val; omega
  have rW : ∀ k : Fin 64, iblk5 V c 1 t (ix2 k (j 1)) = V c main_arg8 (ix2 k ((((cfg5.win 2).blk t).view.emb j) 1)) := fun k => by
    show V c main_arg8 (((cfg5.win 1).blk t).view.emb (ix2 k (j 1))) = _
    refine congrArg (V c main_arg8) (funext fun a => Fin.ext ?_)
    match a with
    | ⟨0, _⟩ => show win5_1.index t (0 : Fin 2) * 64 + 1 * (k).val = (k).val; omega
    | ⟨1, _⟩ => show win5_1.index t (1 : Fin 2) * 256 + 1 * ((j 1)).val = win5_2.index t (1 : Fin 2) * 256 + 1 * (j 1).val; omega
  show mm (n := 2000) (K := 64) (m := 256) (iblk5 V c 0 t) (iblk5 V c 1 t) j
    = mm (n := 50000) (K := 64) (m := 256) (V c main_v61) (V c main_arg8) (((cfg5.win 2).blk t).view.emb j)
  simp only [mm]
  exact Finset.sum_congr rfl fun k _ => congrArg₂ (fun a b : EReal => a * b) (rX k) (rW k)

/-- After the region its output array is the matrix product of the feature array and the weight matrix it found. -/
theorem final (c : Dev nD) : (dat5 V c).arrAt 2 cfg5.N
    = mm (n := 50000) (K := 64) (m := 256) (V c main_v61) (V c main_arg8) :=
  (dat5 V c).arrAt_eq_of_cover 2 _ (fun t _ => flushed_eq V c t) cover

end Cert.KernelIdeal.Region5

end
-- ==== Proof.Region6.lean ====
/-
  Region 6: the self-loop, the bias and the rectifier of a graph-convolution layer. Each grid point takes one block of 2000 rows of the
  aggregated neighbour features and of the transformed features (arrays of 50000 rows and 256 columns), the matching 2000
  entries of the column of squared inverse square-root degrees, and the one-row bias, and writes
  (agg + h * d2) + b, cut below at zero, for that block. The 25 row blocks tile the rows, so after the region the output array is that
  expression of the four arrays the region found, entry by entry.
-/
import proofs.«160709_j25048249270384_1_alg».proof.Proof.Gen.KernelIdeal.Frame
import proofs.«160709_j25048249270384_1_alg».proof.Proof.LibDense

set_option maxRecDepth 16384

noncomputable section

namespace Cert.KernelIdeal.Region6

open Cert.KernelIdeal Cert.KernelIdeal.Gen
open Idealize.ShloMosaic Idealize.ShloMosaic.TcCoe Idealize.SL.Sem Idealize.ShloMosaic.ValueIdx Cert.Lib.Dense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic, entry by entry. -/
theorem pay (x0 x1 : Vec Ideal S2000x256 .f32) (x2 : Vec Ideal S2000x1 .f32) (x3 : Vec Ideal S1x256 .f32) :
    k6_pay1 (F := Ideal) x0 x1 x2 x3 = reluAt (Ideal.ofBits .f32 0x00000000#32) (selfLoop (n := 2000) (m := 256) x0 x1 x2 x3) := by
  unfold k6_pay1
  simp only [shapeCast_self]
  rw [combine_read]
  rfl

/-- The printed index maps, decided over the grid: the row-blocked windows sit at block (t, 0), the bias at (0, 0). -/
theorem idx_facts : ∀ t : Fin cfg6.N, win6_0.index t (0 : Fin 2) = win6_4.index t (0 : Fin 2) ∧ win6_0.index t (1 : Fin 2) = 0
    ∧ win6_1.index t (0 : Fin 2) = win6_4.index t (0 : Fin 2) ∧ win6_1.index t (1 : Fin 2) = 0
    ∧ win6_2.index t (0 : Fin 2) = win6_4.index t (0 : Fin 2) ∧ win6_2.index t (1 : Fin 2) = 0
    ∧ win6_3.index t (0 : Fin 2) = 0 ∧ win6_3.index t (1 : Fin 2) = 0 ∧ win6_4.index t (1 : Fin 2) = 0 :=
  (by decide +kernel : ∀ t : Fin grid6.N, _)

/-- Every block index on the row axis is some grid point's. -/
theorem idx_onto : ∀ q0 : Fin 25, ∃ t : Fin cfg6.N, win6_4.index t = ![q0.val, 0] :=
  (by decide +kernel : ∀ q0 : Fin 25, ∃ t : Fin grid6.N, win6_4.index t = ![q0.val, 0])

/-- An index of the array is in point `t`'s block iff each coordinate is in the block's range on its axis. -/
theorem mem_blk (t : Fin cfg6.N) (i : S50000x256.Idx) :
    i ∈ ((cfg6.win 4).blk t).view.set ↔ ∀ a : Fin 2, win6_4.index t a * S2000x256.size a ≤ (i a).val ∧ (i a).val < win6_4.index t a * S2000x256.size a + S2000x256.size a := by
  show i ∈ ((View.whole main_v76).slice (win6_4.rect t)).set ↔ _
  rw [View.set_slice_whole, Rect.mem_set_unit]
  exact Iff.rfl

/-- The row blocks tile the array: row `r` is in the block of the point `r / 2000`. -/
theorem cover (i : S50000x256.Idx) : ∃ t : Fin cfg6.N, (cfg6.win 4).flush t = true ∧ i ∈ ((cfg6.win 4).blk t).view.set := by
  have hi0 : (i 0).val < 50000 := (i 0).isLt
  have hi1 : (i 1).val < 256 := (i 1).isLt
  obtain ⟨t, ht⟩ := idx_onto ⟨(i 0).val / 2000, by omega⟩
  have q0 : win6_4.index t (0 : Fin 2) = (i 0).val / 2000 := congrFun ht 0
  have q1 : win6_4.index t (1 : Fin 2) = 0 := congrFun ht 1
  refine ⟨t, flush6_4 t, ?_⟩
  rw [mem_blk]
  intro a
  match a with
  | ⟨0, _⟩ => show win6_4.index t (0 : Fin 2) * 2000 ≤ (i 0).val ∧ (i 0).val < win6_4.index t (0 : Fin 2) * 2000 + 2000; omega
  | ⟨1, _⟩ => show win6_4.index t (1 : Fin 2) * 256 ≤ (i 1).val ∧ (i 1).val < win6_4.index t (1 : Fin 2) * 256 + 256; omega

/-- What point `t` writes back is block `t` of the layer's expression of the four arrays as the region finds them. -/
theorem flushed_eq (c : Dev nD) (t : Fin cfg6.N) :
    (dat6 V c).flushed 4 t = ((cfg6.win 4).blk t).view.read (Elt Ideal)
      (reluAt (Ideal.ofBits .f32 0x00000000#32) (selfLoop (n := 50000) (m := 256) (V c main_v74) (V c main_v62) (V c main_v13) (V c main_v75))) := by
  show (cfg6.win 4).cut (grid6.coords t) ((dat6 V c).after 4 t) = _
  rw [after6_4]
  unfold out6_4
  rw [View.canon_unit_zero hz]
  simp only [View.ld_unit_zero (S := S2000x256) hz, View.ld_unit_zero (S := S2000x1) hz, View.ld_unit_zero (S := S1x256) hz]
  rw [pay]
  obtain ⟨e0, e1, e2, e3, e4, e5, e6, e7, e8⟩ := idx_facts t
  funext j
  have hj0 : (j 0).val < 2000 := (j 0).isLt
  have hj1 : (j 1).val < 256 := (j 1).isLt
  have r0 : iblk6 V c 0 t j = V c main_v74 (((cfg6.win 4).blk t).view.emb j) := by
    show V c main_v74 (((cfg6.win 0).blk t).view.emb j) = _
    refine congrArg (V c main_v74) (funext fun a => Fin.ext ?_)
    match a with
    | ⟨0, _⟩ => show win6_0.index t (0 : Fin 2) * 2000 + 1 * (j 0).val = win6_4.index t (0 : Fin 2) * 2000 + 1 * (j 0).val; omega
    | ⟨1, _⟩ => show win6_0.index t (1 : Fin 2) * 256 + 1 * (j 1).val = win6_4.index t (1 : Fin 2) * 256 + 1 * (j 1).val; omega
  have r1 : iblk6 V c 1 t j = V c main_v62 (((cfg6.win 4).blk t).view.emb j) := by
    show V c main_v62 (((cfg6.win 1).blk t).view.emb j) = _
    refine congrArg (V c main_v62) (funext fun a => Fin.ext ?_)
    match a with
    | ⟨0, _⟩ => show win6_1.index t (0 : Fin 2) * 2000 + 1 * (j 0).val = win6_4.index t (0 : Fin 2) * 2000 + 1 * (j 0).val; omega
    | ⟨1, _⟩ => show win6_1.index t (1 : Fin 2) * 256 + 1 * (j 1).val = win6_4.index t (1 : Fin 2) * 256 + 1 * (j 1).val; omega
  have r2 : iblk6 V c 2 t (ix2 (j 0) (0 : Fin 1)) = V c main_v13 (ix2 ((((cfg6.win 4).blk t).view.emb j) 0) (0 : Fin 1)) := by
    show V c main_v13 (((cfg6.win 2).blk t).view.emb (ix2 (j 0) (0 : Fin 1))) = _
    refine congrArg (V c main_v13) (funext fun a => Fin.ext ?_)
    match a with
    | ⟨0, _⟩ => show win6_2.index t (0 : Fin 2) * 2000 + 1 * ((j 0)).val = win6_4.index t (0 : Fin 2) * 2000 + 1 * (j 0).val; omega
    | ⟨1, _⟩ => show win6_2.index t (1 : Fin 2) * 1 + 1 * 0 = 0; omega
  have r3 : iblk6 V c 3 t (ix2 (0 : Fin 1) (j 1)) = V c main_v75 (ix2 (0 : Fin 1) ((((cfg6.win 4).blk t).view.emb j) 1)) := by
    show V c main_v75 (((cfg6.win 3).blk t).view.emb (ix2 (0 : Fin 1) (j 1))) = _
    refine congrArg (V c main_v75) (funext fun a => Fin.ext ?_)
    match a with
    | ⟨0, _⟩ => show win6_3.index t (0 : Fin 2) * 1 + 1 * 0 = 0; omega
    | ⟨1, _⟩ => show win6_3.index t (1 : Fin 2) * 256 + 1 * ((j 1)).val = win6_4.index t (1 : Fin 2) * 256 + 1 * (j 1).val; omega
  show reluAt (Ideal.ofBits .f32 0x00000000#32) (selfLoop (n := 2000) (m := 256) (iblk6 V c 0 t) (iblk6 V c 1 t) (iblk6 V c 2 t) (iblk6 V c 3 t)) j
    = reluAt (Ideal.ofBits .f32 0x00000000#32) (selfLoop (n := 50000) (m := 256) (V c main_v74) (V c main_v62) (V c main_v13) (V c main_v75)) (((cfg6.win 4).blk t).view.emb j)
  simp only [reluAt, selfLoop]
  exact congrArg (fun x : EReal => max x (Ideal.ofBits .f32 0x00000000#32)) (congrArg₂ (fun a b : EReal => a + b) (congrArg₂ (fun a b : EReal => a + b) r0 (congrArg₂ (fun a b : EReal => a * b) r1 r2)) r3)

/-- After the region its output array is the layer's expression of the four arrays it found. -/
theorem final (c : Dev nD) : (dat6 V c).arrAt 4 cfg6.N
    = reluAt (Ideal.ofBits .f32 0x00000000#32) (selfLoop (n := 50000) (m := 256) (V c main_v74) (V c main_v62) (V c main_v13) (V c main_v75)) :=
  (dat6 V c).arrAt_eq_of_cover 4 _ (fun t _ => flushed_eq V c t) cover

end Cert.KernelIdeal.Region6

end
-- ==== Proof.Region7.lean ====
/-
  Region 7: a dense feature transform. Each grid point multiplies one block of 2000 rows of the node features
  (an array of 50000 rows and 256 columns) by the whole 256 by 128 weight matrix and writes the block of 2000 rows
  of the product. The 25 row blocks tile the rows, so after the region the output array is the matrix product of the
  two arrays the region found: entry (r, j) is the sum over k of X (r, k) * W (k, j) — a change of float format is the
  identity on the extended reals, and the accumulator starts from zero.
-/
import proofs.«160709_j25048249270384_1_alg».proof.Proof.Gen.KernelIdeal.Frame
import proofs.«160709_j25048249270384_1_alg».proof.Proof.LibDense

set_option maxRecDepth 16384

noncomputable section

namespace Cert.KernelIdeal.Region7

open Cert.KernelIdeal Cert.KernelIdeal.Gen
open Idealize.ShloMosaic Idealize.ShloMosaic.TcCoe Idealize.SL.Sem Idealize.ShloMosaic.ValueIdx Cert.Lib.Dense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! The operand indices of the body's matrix product are the plain ones: the output's row and the contraction index on
    the left, the contraction index and the output's column on the right. -/
theorem dl0 (i) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dl1 (i) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem dr0 (i) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem dr1 (i) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The body's arithmetic is the matrix product of its two loaded blocks. -/
theorem pay (x0 : Vec Ideal S2000x256 .f32) (x1 : Vec Ideal S256x128 .f32) :
    k7_pay1 (F := Ideal) x0 x1 = mm (n := 2000) (K := 256) (m := 128) x0 x1 := by
  unfold k7_pay1
  simp only [shapeCast_self]
  exact matmul_read dot_S2000x256_S256x128_S2000x128_1_0_0_1_n_n rfl rfl dl0 dl1 dr0 dr1 none _ _

/-- The printed index maps, decided over the grid: the row-blocked windows sit at block (t, 0), the weights at (0, 0). -/
theorem idx_facts : ∀ t : Fin cfg7.N, win7_0.index t (0 : Fin 2) = win7_2.index t (0 : Fin 2) ∧ win7_0.index t (1 : Fin 2) = 0
    ∧ win7_1.index t (0 : Fin 2) = 0 ∧ win7_1.index t (1 : Fin 2) = 0 ∧ win7_2.index t (1 : Fin 2) = 0 :=
  (by decide +kernel : ∀ t : Fin grid7.N, _)

/-- Every block index on the row axis is some grid point's. -/
theorem idx_onto : ∀ q0 : Fin 25, ∃ t : Fin cfg7.N, win7_2.index t = ![q0.val, 0] :=
  (by decide +kernel : ∀ q0 : Fin 25, ∃ t : Fin grid7.N, win7_2.index t = ![q0.val, 0])

/-- An index of the array is in point `t`'s block iff each coordinate is in the block's range on its axis. -/
theorem mem_blk (t : Fin cfg7.N) (i : S50000x128.Idx) :
    i ∈ ((cfg7.win 2).blk t).view.set ↔ ∀ a : Fin 2, win7_2.index t a * S2000x128.size a ≤ (i a).val ∧ (i a).val < win7_2.index t a * S2000x128.size a + S2000x128.size a := by
  show i ∈ ((View.whole main_v77).slice (win7_2.rect t)).set ↔ _
  rw [View.set_slice_whole, Rect.mem_set_unit]
  exact Iff.rfl

/-- The row blocks tile the array: row `r` is in the block of the point `r / 2000`. -/
theorem cover (i : S50000x128.Idx) : ∃ t : Fin cfg7.N, (cfg7.win 2).flush t = true ∧ i ∈ ((cfg7.win 2).blk t).view.set := by
  have hi0 : (i 0).val < 50000 := (i 0).isLt
  have hi1 : (i 1).val < 128 := (i 1).isLt
  obtain ⟨t, ht⟩ := idx_onto ⟨(i 0).val / 2000, by omega⟩
  have q0 : win7_2.index t (0 : Fin 2) = (i 0).val / 2000 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 128 ≤ (i 1).val ∧ (i 1).val < win7_2.index t (1 : Fin 2) * 128 + 128; omega

/-- What point `t` writes back is block `t` of the matrix product of the two arrays as the region finds them. -/
theorem flushed_eq (c : Dev nD) (t : Fin cfg7.N) :
    (dat7 V c).flushed 2 t = ((cfg7.win 2).blk t).view.read (Elt Ideal)
      (mm (n := 50000) (K := 256) (m := 128) (V c main_v76) (V c main_arg10)) := by
  show (cfg7.win 2).cut (grid7.coords t) ((dat7 V c).after 2 t) = _
  rw [after7_2]
  unfold out7_2
  rw [View.canon_unit_zero hz]
  simp only [View.ld_unit_zero (S := S2000x256) hz, View.ld_unit_zero (S := S256x128) hz]
  rw [pay]
  obtain ⟨e0, e1, e2, e3, e4⟩ := idx_facts t
  funext j
  have hj0 : (j 0).val < 2000 := (j 0).isLt
  have hj1 : (j 1).val < 128 := (j 1).isLt
  have rX : ∀ k : Fin 256, iblk7 V c 0 t (ix2 (j 0) k) = V c main_v76 (ix2 ((((cfg7.win 2).blk t).view.emb j) 0) k) := fun k => by
    show V c main_v76 (((cfg7.win 0).blk t).view.emb (ix2 (j 0) k)) = _
    refine congrArg (V c main_v76) (funext fun a => Fin.ext ?_)
    match a with
    | ⟨0, _⟩ => show win7_0.index t (0 : Fin 2) * 2000 + 1 * ((j 0)).val = win7_2.index t (0 : Fin 2) * 2000 + 1 * (j 0).val; omega
    | ⟨1, _⟩ => show win7_0.index t (1 : Fin 2) * 256 + 1 * (k).val = (k).val; omega
  have rW : ∀ k : Fin 256, iblk7 V c 1 t (ix2 k (j 1)) = V c main_arg10 (ix2 k ((((cfg7.win 2).blk t).view.emb j) 1)) := fun k => by
    show V c main_arg10 (((cfg7.win 1).blk t).view.emb (ix2 k (j 1))) = _
    refine congrArg (V c main_arg10) (funext fun a => Fin.ext ?_)
    match a with
    | ⟨0, _⟩ => show win7_1.index t (0 : Fin 2) * 256 + 1 * (k).val = (k).val; omega
    | ⟨1, _⟩ => show win7_1.index t (1 : Fin 2) * 128 + 1 * ((j 1)).val = win7_2.index t (1 : Fin 2) * 128 + 1 * (j 1).val; omega
  show mm (n := 2000) (K := 256) (m := 128) (iblk7 V c 0 t) (iblk7 V c 1 t) j
    = mm (n := 50000) (K := 256) (m := 128) (V c main_v76) (V c main_arg10) (((cfg7.win 2).blk t).view.emb j)
  simp only [mm]
  exact Finset.sum_congr rfl fun k _ => congrArg₂ (fun a b : EReal => a * b) (rX k) (rW k)

/-- After the region its output array is the matrix product of the feature array and the weight matrix it found. -/
theorem final (c : Dev nD) : (dat7 V c).arrAt 2 cfg7.N
    = mm (n := 50000) (K := 256) (m := 128) (V c main_v76) (V c main_arg10) :=
  (dat7 V c).arrAt_eq_of_cover 2 _ (fun t _ => flushed_eq V c t) cover

end Cert.KernelIdeal.Region7

end
-- ==== Proof.Region8.lean ====
/-
  Region 8: the self-loop, the bias of a graph-convolution layer. Each grid point takes one block of 2000 rows of the
  aggregated neighbour features and of the transformed features (arrays of 50000 rows and 128 columns), the matching 2000
  entries of the column of squared inverse square-root degrees, and the one-row bias, and writes
  (agg + h * d2) + b for that block. The 25 row blocks tile the rows, so after the region the output array is that
  expression of the four arrays the region found, entry by entry.
-/
import proofs.«160709_j25048249270384_1_alg».proof.Proof.Gen.KernelIdeal.Frame
import proofs.«160709_j25048249270384_1_alg».proof.Proof.LibDense

set_option maxRecDepth 16384

noncomputable section

namespace Cert.KernelIdeal.Region8

open Cert.KernelIdeal Cert.KernelIdeal.Gen
open Idealize.ShloMosaic Idealize.ShloMosaic.TcCoe Idealize.SL.Sem Idealize.ShloMosaic.ValueIdx Cert.Lib.Dense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic, entry by entry. -/
theorem pay (x0 x1 : Vec Ideal S2000x128 .f32) (x2 : Vec Ideal S2000x1 .f32) (x3 : Vec Ideal S1x128 .f32) :
    k8_pay1 (F := Ideal) x0 x1 x2 x3 = selfLoop (n := 2000) (m := 128) x0 x1 x2 x3 := by
  unfold k8_pay1
  simp only [shapeCast_self]
  exact combine_read _ _ _ _ _ _

/-- The printed index maps, decided over the grid: the row-blocked windows sit at block (t, 0), the bias at (0, 0). -/
theorem idx_facts : ∀ t : Fin cfg8.N, win8_0.index t (0 : Fin 2) = win8_4.index t (0 : Fin 2) ∧ win8_0.index t (1 : Fin 2) = 0
    ∧ win8_1.index t (0 : Fin 2) = win8_4.index t (0 : Fin 2) ∧ win8_1.index t (1 : Fin 2) = 0
    ∧ win8_2.index t (0 : Fin 2) = win8_4.index t (0 : Fin 2) ∧ win8_2.index t (1 : Fin 2) = 0
    ∧ win8_3.index t (0 : Fin 2) = 0 ∧ win8_3.index t (1 : Fin 2) = 0 ∧ win8_4.index t (1 : Fin 2) = 0 :=
  (by decide +kernel : ∀ t : Fin grid8.N, _)

/-- Every block index on the row axis is some grid point's. -/
theorem idx_onto : ∀ q0 : Fin 25, ∃ t : Fin cfg8.N, win8_4.index t = ![q0.val, 0] :=
  (by decide +kernel : ∀ q0 : Fin 25, ∃ t : Fin grid8.N, win8_4.index t = ![q0.val, 0])

/-- An index of the array is in point `t`'s block iff each coordinate is in the block's range on its axis. -/
theorem mem_blk (t : Fin cfg8.N) (i : S50000x128.Idx) :
    i ∈ ((cfg8.win 4).blk t).view.set ↔ ∀ a : Fin 2, win8_4.index t a * S2000x128.size a ≤ (i a).val ∧ (i a).val < win8_4.index t a * S2000x128.size a + S2000x128.size a := by
  show i ∈ ((View.whole main_v91).slice (win8_4.rect t)).set ↔ _
  rw [View.set_slice_whole, Rect.mem_set_unit]
  exact Iff.rfl

/-- The row blocks tile the array: row `r` is in the block of the point `r / 2000`. -/
theorem cover (i : S50000x128.Idx) : ∃ t : Fin cfg8.N, (cfg8.win 4).flush t = true ∧ i ∈ ((cfg8.win 4).blk t).view.set := by
  have hi0 : (i 0).val < 50000 := (i 0).isLt
  have hi1 : (i 1).val < 128 := (i 1).isLt
  obtain ⟨t, ht⟩ := idx_onto ⟨(i 0).val / 2000, by omega⟩
  have q0 : win8_4.index t (0 : Fin 2) = (i 0).val / 2000 := congrFun ht 0
  have q1 : win8_4.index t (1 : Fin 2) = 0 := congrFun ht 1
  refine ⟨t, flush8_4 t, ?_⟩
  rw [mem_blk]
  intro a
  match a with
  | ⟨0, _⟩ => show win8_4.index t (0 : Fin 2) * 2000 ≤ (i 0).val ∧ (i 0).val < win8_4.index t (0 : Fin 2) * 2000 + 2000; omega
  | ⟨1, _⟩ => show win8_4.index t (1 : Fin 2) * 128 ≤ (i 1).val ∧ (i 1).val < win8_4.index t (1 : Fin 2) * 128 + 128; omega

/-- What point `t` writes back is block `t` of the layer's expression of the four arrays as the region finds them. -/
theorem flushed_eq (c : Dev nD) (t : Fin cfg8.N) :
    (dat8 V c).flushed 4 t = ((cfg8.win 4).blk t).view.read (Elt Ideal)
      (selfLoop (n := 50000) (m := 128) (V c main_v89) (V c main_v77) (V c main_v13) (V c main_v90)) := by
  show (cfg8.win 4).cut (grid8.coords t) ((dat8 V c).after 4 t) = _
  rw [after8_4]
  unfold out8_4
  rw [View.canon_unit_zero hz]
  simp only [View.ld_unit_zero (S := S2000x128) hz, View.ld_unit_zero (S := S2000x1) hz, View.ld_unit_zero (S := S1x128) hz]
  rw [pay]
  obtain ⟨e0, e1, e2, e3, e4, e5, e6, e7, e8⟩ := idx_facts t
  funext j
  have hj0 : (j 0).val < 2000 := (j 0).isLt
  have hj1 : (j 1).val < 128 := (j 1).isLt
  have r0 : iblk8 V c 0 t j = V c main_v89 (((cfg8.win 4).blk t).view.emb j) := by
    show V c main_v89 (((cfg8.win 0).blk t).view.emb j) = _
    refine congrArg (V c main_v89) (funext fun a => Fin.ext ?_)
    match a with
    | ⟨0, _⟩ => show win8_0.index t (0 : Fin 2) * 2000 + 1 * (j 0).val = win8_4.index t (0 : Fin 2) * 2000 + 1 * (j 0).val; omega
    | ⟨1, _⟩ => show win8_0.index t (1 : Fin 2) * 128 + 1 * (j 1).val = win8_4.index t (1 : Fin 2) * 128 + 1 * (j 1).val; omega
  have r1 : iblk8 V c 1 t j = V c main_v77 (((cfg8.win 4).blk t).view.emb j) := by
    show V c main_v77 (((cfg8.win 1).blk t).view.emb j) = _
    refine congrArg (V c main_v77) (funext fun a => Fin.ext ?_)
    match a with
    | ⟨0, _⟩ => show win8_1.index t (0 : Fin 2) * 2000 + 1 * (j 0).val = win8_4.index t (0 : Fin 2) * 2000 + 1 * (j 0).val; omega
    | ⟨1, _⟩ => show win8_1.index t (1 : Fin 2) * 128 + 1 * (j 1).val = win8_4.index t (1 : Fin 2) * 128 + 1 * (j 1).val; omega
  have r2 : iblk8 V c 2 t (ix2 (j 0) (0 : Fin 1)) = V c main_v13 (ix2 ((((cfg8.win 4).blk t).view.emb j) 0) (0 : Fin 1)) := by
    show V c main_v13 (((cfg8.win 2).blk t).view.emb (ix2 (j 0) (0 : Fin 1))) = _
    refine congrArg (V c main_v13) (funext fun a => Fin.ext ?_)
    match a with
    | ⟨0, _⟩ => show win8_2.index t (0 : Fin 2) * 2000 + 1 * ((j 0)).val = win8_4.index t (0 : Fin 2) * 2000 + 1 * (j 0).val; omega
    | ⟨1, _⟩ => show win8_2.index t (1 : Fin 2) * 1 + 1 * 0 = 0; omega
  have r3 : iblk8 V c 3 t (ix2 (0 : Fin 1) (j 1)) = V c main_v90 (ix2 (0 : Fin 1) ((((cfg8.win 4).blk t).view.emb j) 1)) := by
    show V c main_v90 (((cfg8.win 3).blk t).view.emb (ix2 (0 : Fin 1) (j 1))) = _
    refine congrArg (V c main_v90) (funext fun a => Fin.ext ?_)
    match a with
    | ⟨0, _⟩ => show win8_3.index t (0 : Fin 2) * 1 + 1 * 0 = 0; omega
    | ⟨1, _⟩ => show win8_3.index t (1 : Fin 2) * 128 + 1 * ((j 1)).val = win8_4.index t (1 : Fin 2) * 128 + 1 * (j 1).val; omega
  show selfLoop (n := 2000) (m := 128) (iblk8 V c 0 t) (iblk8 V c 1 t) (iblk8 V c 2 t) (iblk8 V c 3 t) j
    = selfLoop (n := 50000) (m := 128) (V c main_v89) (V c main_v77) (V c main_v13) (V c main_v90) (((cfg8.win 4).blk t).view.emb j)
  simp only [selfLoop]
  exact congrArg₂ (fun a b : EReal => a + b) (congrArg₂ (fun a b : EReal => a + b) r0 (congrArg₂ (fun a b : EReal => a * b) r1 r2)) r3

/-- After the region its output array is the layer's expression of the four arrays it found. -/
theorem final (c : Dev nD) : (dat8 V c).arrAt 4 cfg8.N
    = selfLoop (n := 50000) (m := 128) (V c main_v89) (V c main_v77) (V c main_v13) (V c main_v90) :=
  (dat8 V c).arrAt_eq_of_cover 4 _ (fun t _ => flushed_eq V c t) cover

end Cert.KernelIdeal.Region8

end
-- ==== Proof.Region9.lean ====
/-
  Region 9: a dense layer with bias. Each grid point multiplies one block of 2000 rows of its
  input (an array of 50000 rows and 128 columns) by the whole 128 by 1024 weight matrix, adds the one-row bias and
  writes the block of 2000 rows. The 25 row blocks tile the rows, so after the region the output array is
  X W + b of the three arrays the region found, entry by entry.
-/
import proofs.«160709_j25048249270384_1_alg».proof.Proof.Gen.KernelIdeal.Frame
import proofs.«160709_j25048249270384_1_alg».proof.Proof.LibDense

set_option maxRecDepth 16384

noncomputable section

namespace Cert.KernelIdeal.Region9

open Cert.KernelIdeal Cert.KernelIdeal.Gen
open Idealize.ShloMosaic Idealize.ShloMosaic.TcCoe Idealize.SL.Sem Idealize.ShloMosaic.ValueIdx Cert.Lib.Dense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! The operand indices of the body's matrix product are the plain ones: the output's row and the contraction index on
    the left, the contraction index and the output's column on the right. -/
theorem dl0 (i) (q : dot_S2000x128_S128x1024_S2000x1024_1_0_0_1_n_n.contr.Idx) : (dot_S2000x128_S128x1024_S2000x1024_1_0_0_1_n_n.lhsIdx i q 0).val = (i 0).val := by
  unfold DotDims.lhsIdx
  rw [dif_neg (show ¬(0 : Fin S2000x128.rank) ∈ dot_S2000x128_S128x1024_S2000x1024_1_0_0_1_n_n.lhsBatch by decide), dif_pos (show (0 : Fin S2000x128.rank) ∈ dot_S2000x128_S128x1024_S2000x1024_1_0_0_1_n_n.lhsNonContracting by decide)]
  rfl
theorem dl1 (i) (q : dot_S2000x128_S128x1024_S2000x1024_1_0_0_1_n_n.contr.Idx) : (dot_S2000x128_S128x1024_S2000x1024_1_0_0_1_n_n.lhsIdx i q 1).val = (q ⟨0, by decide⟩).val :=
  dot_S2000x128_S128x1024_S2000x1024_1_0_0_1_n_n.lhsIdx_val_of_single rfl i q
theorem dr0 (i) (q : dot_S2000x128_S128x1024_S2000x1024_1_0_0_1_n_n.contr.Idx) : (dot_S2000x128_S128x1024_S2000x1024_1_0_0_1_n_n.rhsIdx i q 0).val = (q ⟨0, by decide⟩).val :=
  dot_S2000x128_S128x1024_S2000x1024_1_0_0_1_n_n.rhsIdx_val_of_single rfl i q
theorem dr1 (i) (q : dot_S2000x128_S128x1024_S2000x1024_1_0_0_1_n_n.contr.Idx) : (dot_S2000x128_S128x1024_S2000x1024_1_0_0_1_n_n.rhsIdx i q 1).val = (i 1).val := by
  unfold DotDims.rhsIdx
  rw [dif_neg (show ¬(1 : Fin S128x1024.rank) ∈ dot_S2000x128_S128x1024_S2000x1024_1_0_0_1_n_n.rhsBatch by decide), dif_pos (show (1 : Fin S128x1024.rank) ∈ dot_S2000x128_S128x1024_S2000x1024_1_0_0_1_n_n.rhsNonContracting by decide)]
  rfl

/-- The body's arithmetic: the matrix product of the two loaded blocks plus the bias row. -/
theorem pay (x0 : Vec Ideal S2000x128 .f32) (x1 : Vec Ideal S128x1024 .f32) (x2 : Vec Ideal S1x1024 .f32) :
    k9_pay1 (F := Ideal) x0 x1 x2 = affine (n := 2000) (K := 128) (m := 1024) x0 x1 x2 := by
  unfold k9_pay1
  simp only [shapeCast_self]
  funext j
  refine (addRow_read _ x2 _ j).trans ?_
  rw [matmul_read dot_S2000x128_S128x1024_S2000x1024_1_0_0_1_n_n rfl rfl dl0 dl1 dr0 dr1]
  rfl

/-- The printed index maps, decided over the grid: the row-blocked windows sit at block (t, 0), the weights and the bias at (0, 0). -/
theorem idx_facts : ∀ t : Fin cfg9.N, win9_0.index t (0 : Fin 2) = win9_3.index t (0 : Fin 2) ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0 ∧ win9_3.index t (1 : Fin 2) = 0 :=
  (by decide +kernel : ∀ t : Fin grid9.N, _)

/-- Every block index on the row axis is some grid point's. -/
theorem idx_onto : ∀ q0 : Fin 25, ∃ t : Fin cfg9.N, win9_3.index t = ![q0.val, 0] :=
  (by decide +kernel : ∀ q0 : Fin 25, ∃ t : Fin grid9.N, win9_3.index t = ![q0.val, 0])

/-- An index of the array is in point `t`'s block iff each coordinate is in the block's range on its axis. -/
theorem mem_blk (t : Fin cfg9.N) (i : S50000x1024.Idx) :
    i ∈ ((cfg9.win 3).blk t).view.set ↔ ∀ a : Fin 2, win9_3.index t a * S2000x1024.size a ≤ (i a).val ∧ (i a).val < win9_3.index t a * S2000x1024.size a + S2000x1024.size a := by
  show i ∈ ((View.whole main_v93).slice (win9_3.rect t)).set ↔ _
  rw [View.set_slice_whole, Rect.mem_set_unit]
  exact Iff.rfl

/-- The row blocks tile the array: row `r` is in the block of the point `r / 2000`. -/
theorem cover (i : S50000x1024.Idx) : ∃ t : Fin cfg9.N, (cfg9.win 3).flush t = true ∧ i ∈ ((cfg9.win 3).blk t).view.set := by
  have hi0 : (i 0).val < 50000 := (i 0).isLt
  have hi1 : (i 1).val < 1024 := (i 1).isLt
  obtain ⟨t, ht⟩ := idx_onto ⟨(i 0).val / 2000, by omega⟩
  have q0 : win9_3.index t (0 : Fin 2) = (i 0).val / 2000 := congrFun ht 0
  have q1 : win9_3.index t (1 : Fin 2) = 0 := congrFun ht 1
  refine ⟨t, flush9_3 t, ?_⟩
  rw [mem_blk]
  intro a
  match a with
  | ⟨0, _⟩ => show win9_3.index t (0 : Fin 2) * 2000 ≤ (i 0).val ∧ (i 0).val < win9_3.index t (0 : Fin 2) * 2000 + 2000; omega
  | ⟨1, _⟩ => show win9_3.index t (1 : Fin 2) * 1024 ≤ (i 1).val ∧ (i 1).val < win9_3.index t (1 : Fin 2) * 1024 + 1024; omega

/-- What point `t` writes back is block `t` of the layer's expression of the three arrays as the region finds them. -/
theorem flushed_eq (c : Dev nD) (t : Fin cfg9.N) :
    (dat9 V c).flushed 3 t = ((cfg9.win 3).blk t).view.read (Elt Ideal)
      (affine (n := 50000) (K := 128) (m := 1024) (V c main_v91) (V c main_arg12) (V c main_v92)) := by
  show (cfg9.win 3).cut (grid9.coords t) ((dat9 V c).after 3 t) = _
  rw [after9_3]
  unfold out9_3
  rw [View.canon_unit_zero hz]
  simp only [View.ld_unit_zero (S := S2000x128) hz, View.ld_unit_zero (S := S128x1024) hz, View.ld_unit_zero (S := S1x1024) hz]
  rw [pay]
  obtain ⟨e0, e1, e2, e3, e4, e5, e6⟩ := idx_facts t
  funext j
  have hj0 : (j 0).val < 2000 := (j 0).isLt
  have hj1 : (j 1).val < 1024 := (j 1).isLt
  have rX : ∀ k : Fin 128, iblk9 V c 0 t (ix2 (j 0) k) = V c main_v91 (ix2 ((((cfg9.win 3).blk t).view.emb j) 0) k) := fun k => by
    show V c main_v91 (((cfg9.win 0).blk t).view.emb (ix2 (j 0) k)) = _
    refine congrArg (V c main_v91) (funext fun a => Fin.ext ?_)
    match a with
    | ⟨0, _⟩ => show win9_0.index t (0 : Fin 2) * 2000 + 1 * ((j 0)).val = win9_3.index t (0 : Fin 2) * 2000 + 1 * (j 0).val; omega
    | ⟨1, _⟩ => show win9_0.index t (1 : Fin 2) * 128 + 1 * (k).val = (k).val; omega
  have rW : ∀ k : Fin 128, iblk9 V c 1 t (ix2 k (j 1)) = V c main_arg12 (ix2 k ((((cfg9.win 3).blk t).view.emb j) 1)) := fun k => by
    show V c main_arg12 (((cfg9.win 1).blk t).view.emb (ix2 k (j 1))) = _
    refine congrArg (V c main_arg12) (funext fun a => Fin.ext ?_)
    match a with
    | ⟨0, _⟩ => show win9_1.index t (0 : Fin 2) * 128 + 1 * (k).val = (k).val; omega
    | ⟨1, _⟩ => show win9_1.index t (1 : Fin 2) * 1024 + 1 * ((j 1)).val = win9_3.index t (1 : Fin 2) * 1024 + 1 * (j 1).val; omega
  have rb : iblk9 V c 2 t (ix2 (0 : Fin 1) (j 1)) = V c main_v92 (ix2 (0 : Fin 1) ((((cfg9.win 3).blk t).view.emb j) 1)) := by
    show V c main_v92 (((cfg9.win 2).blk t).view.emb (ix2 (0 : Fin 1) (j 1))) = _
    refine congrArg (V c main_v92) (funext fun a => Fin.ext ?_)
    match a with
    | ⟨0, _⟩ => show win9_2.index t (0 : Fin 2) * 1 + 1 * 0 = 0; omega
    | ⟨1, _⟩ => show win9_2.index t (1 : Fin 2) * 1024 + 1 * ((j 1)).val = win9_3.index t (1 : Fin 2) * 1024 + 1 * (j 1).val; omega
  show affine (n := 2000) (K := 128) (m := 1024) (iblk9 V c 0 t) (iblk9 V c 1 t) (iblk9 V c 2 t) j
    = affine (n := 50000) (K := 128) (m := 1024) (V c main_v91) (V c main_arg12) (V c main_v92) (((cfg9.win 3).blk t).view.emb j)
  simp only [affine, mm]
  exact congrArg₂ (fun a b : EReal => a + b) (Finset.sum_congr rfl fun k _ => congrArg₂ (fun a b : EReal => a * b) (rX k) (rW k)) rb

/-- After the region its output array is the layer's expression of the three arrays it found. -/
theorem final (c : Dev nD) : (dat9 V c).arrAt 3 cfg9.N
    = affine (n := 50000) (K := 128) (m := 1024) (V c main_v91) (V c main_arg12) (V c main_v92) :=
  (dat9 V c).arrAt_eq_of_cover 3 _ (fun t _ => flushed_eq V c t) cover

end Cert.KernelIdeal.Region9

end
-- ==== Proof.Region10.lean ====
/-
  Region 10: a dense layer with bias under the logistic function (the link predictor). Each grid point multiplies one block of 16000 rows of its
  input (an array of 800000 rows and 128 columns) by the whole 128 by 1 weight matrix, adds the one-row bias, applies the logistic function and
  writes the block of 16000 rows. The 50 row blocks tile the rows, so after the region the output array is
  logistic (X W + b) of the three arrays the region found, entry by entry.
-/
import proofs.«160709_j25048249270384_1_alg».proof.Proof.Gen.KernelIdeal.Frame
import proofs.«160709_j25048249270384_1_alg».proof.Proof.LibDense

set_option maxRecDepth 16384

noncomputable section

namespace Cert.KernelIdeal.Region10

open Cert.KernelIdeal Cert.KernelIdeal.Gen
open Idealize.ShloMosaic Idealize.ShloMosaic.TcCoe Idealize.SL.Sem Idealize.ShloMosaic.ValueIdx Cert.Lib.Dense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! The operand indices of the body's matrix product are the plain ones: the output's row and the contraction index on
    the left, the contraction index and the output's column on the right. -/
theorem dl0 (i) (q : dot_S16000x128_S128x1_S16000x1_1_0_0_1_n_n.contr.Idx) : (dot_S16000x128_S128x1_S16000x1_1_0_0_1_n_n.lhsIdx i q 0).val = (i 0).val := by
  unfold DotDims.lhsIdx
  rw [dif_neg (show ¬(0 : Fin S16000x128.rank) ∈ dot_S16000x128_S128x1_S16000x1_1_0_0_1_n_n.lhsBatch by decide), dif_pos (show (0 : Fin S16000x128.rank) ∈ dot_S16000x128_S128x1_S16000x1_1_0_0_1_n_n.lhsNonContracting by decide)]
  rfl
theorem dl1 (i) (q : dot_S16000x128_S128x1_S16000x1_1_0_0_1_n_n.contr.Idx) : (dot_S16000x128_S128x1_S16000x1_1_0_0_1_n_n.lhsIdx i q 1).val = (q ⟨0, by decide⟩).val :=
  dot_S16000x128_S128x1_S16000x1_1_0_0_1_n_n.lhsIdx_val_of_single rfl i q
theorem dr0 (i) (q : dot_S16000x128_S128x1_S16000x1_1_0_0_1_n_n.contr.Idx) : (dot_S16000x128_S128x1_S16000x1_1_0_0_1_n_n.rhsIdx i q 0).val = (q ⟨0, by decide⟩).val :=
  dot_S16000x128_S128x1_S16000x1_1_0_0_1_n_n.rhsIdx_val_of_single rfl i q
theorem dr1 (i) (q : dot_S16000x128_S128x1_S16000x1_1_0_0_1_n_n.contr.Idx) : (dot_S16000x128_S128x1_S16000x1_1_0_0_1_n_n.rhsIdx i q 1).val = (i 1).val := by
  unfold DotDims.rhsIdx
  rw [dif_neg (show ¬(1 : Fin S128x1.rank) ∈ dot_S16000x128_S128x1_S16000x1_1_0_0_1_n_n.rhsBatch by decide), dif_pos (show (1 : Fin S128x1.rank) ∈ dot_S16000x128_S128x1_S16000x1_1_0_0_1_n_n.rhsNonContracting by decide)]
  rfl

/-- The body's arithmetic: the matrix product of the two loaded blocks plus the bias row, under the logistic function. -/
theorem pay (x0 : Vec Ideal S16000x128 .f32) (x1 : Vec Ideal S128x1 .f32) (x2 : Vec Ideal S1x1 .f32) :
    k10_pay1 (F := Ideal) x0 x1 x2 = sigm (affine (n := 16000) (K := 128) (m := 1) x0 x1 x2) := by
  unfold k10_pay1
  simp only [shapeCast_self]
  funext j
  show Ideal.logistic _ = Ideal.logistic _
  refine congrArg Ideal.logistic ?_
  refine (addRow_read _ x2 _ j).trans ?_
  rw [matmul_read dot_S16000x128_S128x1_S16000x1_1_0_0_1_n_n rfl rfl dl0 dl1 dr0 dr1]
  rfl

/-- The printed index maps, decided over the grid: the row-blocked windows sit at block (t, 0), the weights and the bias at (0, 0). -/
theorem idx_facts : ∀ t : Fin cfg10.N, win10_0.index t (0 : Fin 2) = win10_3.index t (0 : Fin 2) ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0 ∧ win10_3.index t (1 : Fin 2) = 0 :=
  (by decide +kernel : ∀ t : Fin grid10.N, _)

/-- Every block index on the row axis is some grid point's. -/
theorem idx_onto : ∀ q0 : Fin 50, ∃ t : Fin cfg10.N, win10_3.index t = ![q0.val, 0] :=
  (by decide +kernel : ∀ q0 : Fin 50, ∃ t : Fin grid10.N, win10_3.index t = ![q0.val, 0])

/-- An index of the array is in point `t`'s block iff each coordinate is in the block's range on its axis. -/
theorem mem_blk (t : Fin cfg10.N) (i : S800000x1.Idx) :
    i ∈ ((cfg10.win 3).blk t).view.set ↔ ∀ a : Fin 2, win10_3.index t a * S16000x1.size a ≤ (i a).val ∧ (i a).val < win10_3.index t a * S16000x1.size a + S16000x1.size a := by
  show i ∈ ((View.whole main_v110).slice (win10_3.rect t)).set ↔ _
  rw [View.set_slice_whole, Rect.mem_set_unit]
  exact Iff.rfl

/-- The row blocks tile the array: row `r` is in the block of the point `r / 16000`. -/
theorem cover (i : S800000x1.Idx) : ∃ t : Fin cfg10.N, (cfg10.win 3).flush t = true ∧ i ∈ ((cfg10.win 3).blk t).view.set := by
  have hi0 : (i 0).val < 800000 := (i 0).isLt
  have hi1 : (i 1).val < 1 := (i 1).isLt
  obtain ⟨t, ht⟩ := idx_onto ⟨(i 0).val / 16000, by omega⟩
  have q0 : win10_3.index t (0 : Fin 2) = (i 0).val / 16000 := congrFun ht 0
  have q1 : win10_3.index t (1 : Fin 2) = 0 := congrFun ht 1
  refine ⟨t, flush10_3 t, ?_⟩
  rw [mem_blk]
  intro a
  match a with
  | ⟨0, _⟩ => show win10_3.index t (0 : Fin 2) * 16000 ≤ (i 0).val ∧ (i 0).val < win10_3.index t (0 : Fin 2) * 16000 + 16000; omega
  | ⟨1, _⟩ => show win10_3.index t (1 : Fin 2) * 1 ≤ (i 1).val ∧ (i 1).val < win10_3.index t (1 : Fin 2) * 1 + 1; omega

/-- What point `t` writes back is block `t` of the layer's expression of the three arrays as the region finds them. -/
theorem flushed_eq (c : Dev nD) (t : Fin cfg10.N) :
    (dat10 V c).flushed 3 t = ((cfg10.win 3).blk t).view.read (Elt Ideal)
      (sigm (affine (n := 800000) (K := 128) (m := 1) (V c main_v108) (V c main_arg14) (V c main_v109))) := by
  show (cfg10.win 3).cut (grid10.coords t) ((dat10 V c).after 3 t) = _
  rw [after10_3]
  unfold out10_3
  rw [View.canon_unit_zero hz]
  simp only [View.ld_unit_zero (S := S16000x128) hz, View.ld_unit_zero (S := S128x1) hz, View.ld_unit_zero (S := S1x1) hz]
  rw [pay]
  obtain ⟨e0, e1, e2, e3, e4, e5, e6⟩ := idx_facts t
  funext j
  have hj0 : (j 0).val < 16000 := (j 0).isLt
  have hj1 : (j 1).val < 1 := (j 1).isLt
  have rX : ∀ k : Fin 128, iblk10 V c 0 t (ix2 (j 0) k) = V c main_v108 (ix2 ((((cfg10.win 3).blk t).view.emb j) 0) k) := fun k => by
    show V c main_v108 (((cfg10.win 0).blk t).view.emb (ix2 (j 0) k)) = _
    refine congrArg (V c main_v108) (funext fun a => Fin.ext ?_)
    match a with
    | ⟨0, _⟩ => show win10_0.index t (0 : Fin 2) * 16000 + 1 * ((j 0)).val = win10_3.index t (0 : Fin 2) * 16000 + 1 * (j 0).val; omega
    | ⟨1, _⟩ => show win10_0.index t (1 : Fin 2) * 128 + 1 * (k).val = (k).val; omega
  have rW : ∀ k : Fin 128, iblk10 V c 1 t (ix2 k (j 1)) = V c main_arg14 (ix2 k ((((cfg10.win 3).blk t).view.emb j) 1)) := fun k => by
    show V c main_arg14 (((cfg10.win 1).blk t).view.emb (ix2 k (j 1))) = _
    refine congrArg (V c main_arg14) (funext fun a => Fin.ext ?_)
    match a with
    | ⟨0, _⟩ => show win10_1.index t (0 : Fin 2) * 128 + 1 * (k).val = (k).val; omega
    | ⟨1, _⟩ => show win10_1.index t (1 : Fin 2) * 1 + 1 * ((j 1)).val = win10_3.index t (1 : Fin 2) * 1 + 1 * (j 1).val; omega
  have rb : iblk10 V c 2 t (ix2 (0 : Fin 1) (j 1)) = V c main_v109 (ix2 (0 : Fin 1) ((((cfg10.win 3).blk t).view.emb j) 1)) := by
    show V c main_v109 (((cfg10.win 2).blk t).view.emb (ix2 (0 : Fin 1) (j 1))) = _
    refine congrArg (V c main_v109) (funext fun a => Fin.ext ?_)
    match a with
    | ⟨0, _⟩ => show win10_2.index t (0 : Fin 2) * 1 + 1 * 0 = 0; omega
    | ⟨1, _⟩ => show win10_2.index t (1 : Fin 2) * 1 + 1 * ((j 1)).val = win10_3.index t (1 : Fin 2) * 1 + 1 * (j 1).val; omega
  show sigm (affine (n := 16000) (K := 128) (m := 1) (iblk10 V c 0 t) (iblk10 V c 1 t) (iblk10 V c 2 t)) j
    = sigm (affine (n := 800000) (K := 128) (m := 1) (V c main_v108) (V c main_arg14) (V c main_v109)) (((cfg10.win 3).blk t).view.emb j)
  simp only [sigm, affine, mm]
  exact congrArg Ideal.logistic (congrArg₂ (fun a b : EReal => a + b) (Finset.sum_congr rfl fun k _ => congrArg₂ (fun a b : EReal => a * b) (rX k) (rW k)) rb)

/-- After the region its output array is the layer's expression of the three arrays it found. -/
theorem final (c : Dev nD) : (dat10 V c).arrAt 3 cfg10.N
    = sigm (affine (n := 800000) (K := 128) (m := 1) (V c main_v108) (V c main_arg14) (V c main_v109)) :=
  (dat10 V c).arrAt_eq_of_cover 3 _ (fun t _ => flushed_eq V c t) cover

end Cert.KernelIdeal.Region10

end
-- ==== Proof.Fold.lean ====
/-
  The idealized kernel's buffers, boundary by boundary, as the reference's stages.

  @main alternates host stretches and pipelined regions. At each boundary the buffers later segments read hold, as
  functions of the launch memory's argument arrays, exactly what the reference computes at the matching stage: a
  region's output array is the dense-layer function of the arrays it found (the eleven region modules), the reference's
  stage is the same function of its earlier stages (the layer lemmas), and a host stretch runs the reference's own
  gathers, scatter-adds and index arithmetic on equal operands. The per-edge norm column and the squared-degree column
  the kernel makes by a reshape are the columns the reference makes by a broadcast along a new unit axis.
-/
import proofs.«160709_j25048249270384_1_alg».proof.Defs
import proofs.«160709_j25048249270384_1_alg».proof.Proof.Kept
import proofs.«160709_j25048249270384_1_alg».proof.Proof.RefLayers
import proofs.«160709_j25048249270384_1_alg».proof.Proof.Region0
import proofs.«160709_j25048249270384_1_alg».proof.Proof.Region1
import proofs.«160709_j25048249270384_1_alg».proof.Proof.Region2
import proofs.«160709_j25048249270384_1_alg».proof.Proof.Region3
import proofs.«160709_j25048249270384_1_alg».proof.Proof.Region4
import proofs.«160709_j25048249270384_1_alg».proof.Proof.Region5
import proofs.«160709_j25048249270384_1_alg».proof.Proof.Region6
import proofs.«160709_j25048249270384_1_alg».proof.Proof.Region7
import proofs.«160709_j25048249270384_1_alg».proof.Proof.Region8
import proofs.«160709_j25048249270384_1_alg».proof.Proof.Region9
import proofs.«160709_j25048249270384_1_alg».proof.Proof.Region10
import Idealize.ShloMosaic.Lib.StableHlo.Run

set_option maxRecDepth 16384

noncomputable section

namespace Cert.KernelIdeal.Fold

open Cert.KernelIdeal Cert.KernelIdeal.Gen Cert.KernelIdeal.Kept
open Cert.ReferenceIdeal.Read Cert.ReferenceIdeal.Layers
open Idealize.ShloMosaic Idealize.ShloMosaic.TcCoe Idealize.SL.Sem Idealize.ShloMosaic.ValueIdx Idealize.ShloMosaic.StableHlo Cert.Lib.Dense
open Idealize.ShloMosaic.Pipeline (Dat Cfg Window)

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)
local notation "x14" => m ((c : Thread nD τ).loc main_arg14)
local notation "x15" => m ((c : Thread nD τ).loc main_arg15)

/-! ## The first host stretch: the edge indices, the squared-degree column, the per-edge norm -/

theorem w1_v1 : W1 m ρ c (Proc.devRef .tc main_v1) = val_main_v1 (F := Ideal) x1 := by
  show StableHlo.after hostOps0 (W0 m ρ c) (Proc.devRef .tc main_v1) = _
  after_results
  rfl

theorem w1_v3 : W1 m ρ c (Proc.devRef .tc main_v3) = val_main_v3 (F := Ideal) x1 := by
  show StableHlo.after hostOps0 (W0 m ρ c) (Proc.devRef .tc main_v3) = _
  after_results
  rfl

theorem w1_v13 : W1 m ρ c (Proc.devRef .tc main_v13) = shapeCast S50000x1 (val_main_v41 (F := Ideal) x1) shapeCasts_S50000_S50000x1 := by
  show StableHlo.after hostOps0 (W0 m ρ c) (Proc.devRef .tc main_v13) = _
  after_results
  rfl

set_option maxHeartbeats 8000000 in
theorem w1_v29 : W1 m ρ c (Proc.devRef .tc main_v29) = val_main_v28 (F := Ideal) x1 := by
  show StableHlo.after hostOps0 (W0 m ρ c) (Proc.devRef .tc main_v29) = _
  after_results
  refine (colCast_eq_bcast _ _ Cert.ReferenceIdeal.Facts₀.bcast_S800000_S800000x1_0).trans ?_
  rfl

/-! ## Encoder, first layer -/

theorem w2_v30 : W2 m ρ c (Proc.devRef .tc main_v30) = val_main_v12 (F := Ideal) x0 x2 :=
  (W2_arr m ρ c 2).trans ((Region0.final (V1 m ρ) c).trans (by
    rw [show V1 m ρ c main_arg0 = x0 from (arg1 m ρ c main_arg0 (by simp [args])), show V1 m ρ c main_arg2 = x2 from (arg1 m ρ c main_arg2 (by simp [args]))]
    exact (mm12 x0 x2).symm))
theorem w3_v30 : W3 m ρ c (Proc.devRef .tc main_v30) = val_main_v12 (F := Ideal) x0 x2 :=
  (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_v30 m ρ c)
set_option maxHeartbeats 8000000 in
theorem w3_v42 : W3 m ρ c (Proc.devRef .tc main_v42) = val_main_v40 (F := Ideal) x0 x1 x2 := by
  show StableHlo.after hostOps1 (W2 m ρ c) (Proc.devRef .tc main_v42) = _
  after_results
  rw [w2_v30 m ρ c, show W2 m ρ c (Proc.devRef .tc main_v1) = _ from ((at2 m ρ c main_v1 (by simp [stable])).trans (w1_v1 m ρ c)), show W2 m ρ c (Proc.devRef .tc main_v3) = _ from ((at2 m ρ c main_v3 (by simp [stable])).trans (w1_v3 m ρ c)), show W2 m ρ c (Proc.devRef .tc main_v29) = _ from ((at2 m ρ c main_v29 (by simp [stable])).trans (w1_v29 m ρ c))]
  rfl

theorem w3_v43 : W3 m ρ c (Proc.devRef .tc main_v43) = shapeCast S1x128 x3 shapeCasts_S128_S1x128 := by
  show StableHlo.after hostOps1 (W2 m ρ c) (Proc.devRef .tc main_v43) = _
  after_results
  rw [show W2 m ρ c (Proc.devRef .tc main_arg3) = _ from ((at2 m ρ c main_arg3 (by simp [stable])).trans (arg1 m ρ c main_arg3 (by simp [args])))]
  rfl

theorem w4_v44 : W4 m ρ c (Proc.devRef .tc main_v44) = val_main_v49 (F := Ideal) x0 x1 x2 x3 :=
  (W4_arr m ρ c 4).trans ((Region1.final (V3 m ρ) c).trans (by
    rw [show V3 m ρ c main_v42 = _ from w3_v42 m ρ c, show V3 m ρ c main_v30 = _ from w3_v30 m ρ c,
      show V3 m ρ c main_v13 = _ from ((at3 m ρ c main_v13 (by simp [stable])).trans (w1_v13 m ρ c)), show V3 m ρ c main_v43 = _ from w3_v43 m ρ c]
    exact (layer49 x0 x1 x2 x3 _ _).symm))

/-! ## Encoder, second layer and its closing dense layer -/

theorem w5_v45 : W5 m ρ c (Proc.devRef .tc main_v45) = val_main_v50 (F := Ideal) x0 x1 x2 x3 x4 :=
  (W5_arr m ρ c 2).trans ((Region2.final (V4 m ρ) c).trans (by
    rw [show V4 m ρ c main_v44 = _ from w4_v44 m ρ c, show V4 m ρ c main_arg4 = x4 from ((at4 m ρ c main_arg4 (by simp [stable])).trans (arg1 m ρ c main_arg4 (by simp [args])))]
    exact (mm50 x0 x1 x2 x3 x4).symm))
theorem w6_v45 : W6 m ρ c (Proc.devRef .tc main_v45) = val_main_v50 (F := Ideal) x0 x1 x2 x3 x4 :=
  (StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w5_v45 m ρ c)
set_option maxHeartbeats 8000000 in
theorem w6_v57 : W6 m ρ c (Proc.devRef .tc main_v57) = val_main_v78 (F := Ideal) x0 x1 x2 x3 x4 := by
  show StableHlo.after hostOps3 (W5 m ρ c) (Proc.devRef .tc main_v57) = _
  after_results
  rw [w5_v45 m ρ c, show W5 m ρ c (Proc.devRef .tc main_v1) = _ from ((at5 m ρ c main_v1 (by simp [stable])).trans (w1_v1 m ρ c)), show W5 m ρ c (Proc.devRef .tc main_v3) = _ from ((at5 m ρ c main_v3 (by simp [stable])).trans (w1_v3 m ρ c)), show W5 m ρ c (Proc.devRef .tc main_v29) = _ from ((at5 m ρ c main_v29 (by simp [stable])).trans (w1_v29 m ρ c))]
  rfl

theorem w6_v58 : W6 m ρ c (Proc.devRef .tc main_v58) = shapeCast S1x64 x5 shapeCasts_S64_S1x64 := by
  show StableHlo.after hostOps3 (W5 m ρ c) (Proc.devRef .tc main_v58) = _
  after_results
  rw [show W5 m ρ c (Proc.devRef .tc main_arg5) = _ from ((at5 m ρ c main_arg5 (by simp [stable])).trans (arg1 m ρ c main_arg5 (by simp [args])))]
  rfl

theorem w7_v59 : W7 m ρ c (Proc.devRef .tc main_v59) = val_main_v86 (F := Ideal) x0 x1 x2 x3 x4 x5 :=
  (W7_arr m ρ c 4).trans ((Region3.final (V6 m ρ) c).trans (by
    rw [show V6 m ρ c main_v57 = _ from w6_v57 m ρ c, show V6 m ρ c main_v45 = _ from w6_v45 m ρ c,
      show V6 m ρ c main_v13 = _ from ((at6 m ρ c main_v13 (by simp [stable])).trans (w1_v13 m ρ c)), show V6 m ρ c main_v58 = _ from w6_v58 m ρ c]
    exact (layer86 x0 x1 x2 x3 x4 x5 _ _).symm))
theorem w8_v59 : W8 m ρ c (Proc.devRef .tc main_v59) = val_main_v86 (F := Ideal) x0 x1 x2 x3 x4 x5 :=
  (StableHlo.after_of_forall_not_mem _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w7_v59 m ρ c)
theorem w8_v60 : W8 m ρ c (Proc.devRef .tc main_v60) = shapeCast S1x64 x7 shapeCasts_S64_S1x64 := by
  show StableHlo.after hostOps4 (W7 m ρ c) (Proc.devRef .tc main_v60) = _
  after_results
  rw [show W7 m ρ c (Proc.devRef .tc main_arg7) = _ from ((at7 m ρ c main_arg7 (by simp [stable])).trans (arg1 m ρ c main_arg7 (by simp [args])))]
  rfl

theorem w9_v61 : W9 m ρ c (Proc.devRef .tc main_v61) = val_main_v90 (F := Ideal) x0 x1 x2 x3 x4 x5 x6 x7 :=
  (W9_arr m ρ c 3).trans ((Region4.final (V8 m ρ) c).trans (by
    rw [show V8 m ρ c main_v59 = _ from w8_v59 m ρ c, show V8 m ρ c main_arg6 = x6 from ((at8 m ρ c main_arg6 (by simp [stable])).trans (arg1 m ρ c main_arg6 (by simp [args]))),
      show V8 m ρ c main_v60 = _ from w8_v60 m ρ c]
    exact (dense90 x0 x1 x2 x3 x4 x5 x6 x7 _).symm))

/-! ## Decoder, first layer -/

theorem w10_v62 : W10 m ρ c (Proc.devRef .tc main_v62) = val_main_v91 (F := Ideal) x0 x1 x2 x3 x4 x5 x6 x7 x8 :=
  (W10_arr m ρ c 2).trans ((Region5.final (V9 m ρ) c).trans (by
    rw [show V9 m ρ c main_v61 = _ from w9_v61 m ρ c, show V9 m ρ c main_arg8 = x8 from ((at9 m ρ c main_arg8 (by simp [stable])).trans (arg1 m ρ c main_arg8 (by simp [args])))]
    exact (mm91 x0 x1 x2 x3 x4 x5 x6 x7 x8).symm))
theorem w11_v62 : W11 m ρ c (Proc.devRef .tc main_v62) = val_main_v91 (F := Ideal) x0 x1 x2 x3 x4 x5 x6 x7 x8 :=
  (StableHlo.after_of_forall_not_mem _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w10_v62 m ρ c)
set_option maxHeartbeats 8000000 in
theorem w11_v74 : W11 m ρ c (Proc.devRef .tc main_v74) = val_main_v119 (F := Ideal) x0 x1 x2 x3 x4 x5 x6 x7 x8 := by
  show StableHlo.after hostOps6 (W10 m ρ c) (Proc.devRef .tc main_v74) = _
  after_results
  rw [w10_v62 m ρ c, show W10 m ρ c (Proc.devRef .tc main_v1) = _ from ((at10 m ρ c main_v1 (by simp [stable])).trans (w1_v1 m ρ c)), show W10 m ρ c (Proc.devRef .tc main_v3) = _ from ((at10 m ρ c main_v3 (by simp [stable])).trans (w1_v3 m ρ c)), show W10 m ρ c (Proc.devRef .tc main_v29) = _ from ((at10 m ρ c main_v29 (by simp [stable])).trans (w1_v29 m ρ c))]
  rfl

theorem w11_v75 : W11 m ρ c (Proc.devRef .tc main_v75) = shapeCast S1x256 x9 shapeCasts_S256_S1x256 := by
  show StableHlo.after hostOps6 (W10 m ρ c) (Proc.devRef .tc main_v75) = _
  after_results
  rw [show W10 m ρ c (Proc.devRef .tc main_arg9) = _ from ((at10 m ρ c main_arg9 (by simp [stable])).trans (arg1 m ρ c main_arg9 (by simp [args])))]
  rfl

theorem w12_v76 : W12 m ρ c (Proc.devRef .tc main_v76) = val_main_v128 (F := Ideal) x0 x1 x2 x3 x4 x5 x6 x7 x8 x9 :=
  (W12_arr m ρ c 4).trans ((Region6.final (V11 m ρ) c).trans (by
    rw [show V11 m ρ c main_v74 = _ from w11_v74 m ρ c, show V11 m ρ c main_v62 = _ from w11_v62 m ρ c,
      show V11 m ρ c main_v13 = _ from ((at11 m ρ c main_v13 (by simp [stable])).trans (w1_v13 m ρ c)), show V11 m ρ c main_v75 = _ from w11_v75 m ρ c]
    exact (layer128 x0 x1 x2 x3 x4 x5 x6 x7 x8 x9 _ _).symm))

/-! ## Decoder, second layer and its closing dense layer: the first result -/

theorem w13_v77 : W13 m ρ c (Proc.devRef .tc main_v77) = val_main_v129 (F := Ideal) x0 x1 x2 x3 x4 x5 x6 x7 x8 x9 x10 :=
  (W13_arr m ρ c 2).trans ((Region7.final (V12 m ρ) c).trans (by
    rw [show V12 m ρ c main_v76 = _ from w12_v76 m ρ c, show V12 m ρ c main_arg10 = x10 from ((at12 m ρ c main_arg10 (by simp [stable])).trans (arg1 m ρ c main_arg10 (by simp [args])))]
    exact (mm129 x0 x1 x2 x3 x4 x5 x6 x7 x8 x9 x10).symm))
theorem w14_v77 : W14 m ρ c (Proc.devRef .tc main_v77) = val_main_v129 (F := Ideal) x0 x1 x2 x3 x4 x5 x6 x7 x8 x9 x10 :=
  (StableHlo.after_of_forall_not_mem _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w13_v77 m ρ c)
set_option maxHeartbeats 8000000 in
theorem w14_v89 : W14 m ρ c (Proc.devRef .tc main_v89) = val_main_v157 (F := Ideal) x0 x1 x2 x3 x4 x5 x6 x7 x8 x9 x10 := by
  show StableHlo.after hostOps8 (W13 m ρ c) (Proc.devRef .tc main_v89) = _
  after_results
  rw [w13_v77 m ρ c, show W13 m ρ c (Proc.devRef .tc main_v1) = _ from ((at13 m ρ c main_v1 (by simp [stable])).trans (w1_v1 m ρ c)), show W13 m ρ c (Proc.devRef .tc main_v3) = _ from ((at13 m ρ c main_v3 (by simp [stable])).trans (w1_v3 m ρ c)), show W13 m ρ c (Proc.devRef .tc main_v29) = _ from ((at13 m ρ c main_v29 (by simp [stable])).trans (w1_v29 m ρ c))]
  rfl

theorem w14_v90 : W14 m ρ c (Proc.devRef .tc main_v90) = shapeCast S1x128 x11 shapeCasts_S128_S1x128 := by
  show StableHlo.after hostOps8 (W13 m ρ c) (Proc.devRef .tc main_v90) = _
  after_results
  rw [show W13 m ρ c (Proc.devRef .tc main_arg11) = _ from ((at13 m ρ c main_arg11 (by simp [stable])).trans (arg1 m ρ c main_arg11 (by simp [args])))]
  rfl

theorem w15_v91 : W15 m ρ c (Proc.devRef .tc main_v91) = val_main_v165 (F := Ideal) x0 x1 x2 x3 x4 x5 x6 x7 x8 x9 x10 x11 :=
  (W15_arr m ρ c 4).trans ((Region8.final (V14 m ρ) c).trans (by
    rw [show V14 m ρ c main_v89 = _ from w14_v89 m ρ c, show V14 m ρ c main_v77 = _ from w14_v77 m ρ c,
      show V14 m ρ c main_v13 = _ from ((at14 m ρ c main_v13 (by simp [stable])).trans (w1_v13 m ρ c)), show V14 m ρ c main_v90 = _ from w14_v90 m ρ c]
    exact (layer165 x0 x1 x2 x3 x4 x5 x6 x7 x8 x9 x10 x11 _ _).symm))
theorem w16_v91 : W16 m ρ c (Proc.devRef .tc main_v91) = val_main_v165 (F := Ideal) x0 x1 x2 x3 x4 x5 x6 x7 x8 x9 x10 x11 :=
  (StableHlo.after_of_forall_not_mem _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w15_v91 m ρ c)
theorem w16_v92 : W16 m ρ c (Proc.devRef .tc main_v92) = shapeCast S1x1024 x13 shapeCasts_S1024_S1x1024 := by
  show StableHlo.after hostOps9 (W15 m ρ c) (Proc.devRef .tc main_v92) = _
  after_results
  rw [show W15 m ρ c (Proc.devRef .tc main_arg13) = _ from ((at15 m ρ c main_arg13 (by simp [stable])).trans (arg1 m ρ c main_arg13 (by simp [args])))]
  rfl

theorem w17_v93 : W17 m ρ c (Proc.devRef .tc main_v93) = val_main_v169 (F := Ideal) x0 x1 x2 x3 x4 x5 x6 x7 x8 x9 x10 x11 x12 x13 :=
  (W17_arr m ρ c 3).trans ((Region9.final (V16 m ρ) c).trans (by
    rw [show V16 m ρ c main_v91 = _ from w16_v91 m ρ c, show V16 m ρ c main_arg12 = x12 from ((at16 m ρ c main_arg12 (by simp [stable])).trans (arg1 m ρ c main_arg12 (by simp [args]))),
      show V16 m ρ c main_v92 = _ from w16_v92 m ρ c]
    exact (dense169 x0 x1 x2 x3 x4 x5 x6 x7 x8 x9 x10 x11 x12 x13 _).symm))
/-- The reconstruction of the node features at the return: the last host stretch and the link predictor's region write
    other buffers. -/
theorem w19_v93 : W19 m ρ c (Proc.devRef .tc main_v93) = val_main_v169 (F := Ideal) x0 x1 x2 x3 x4 x5 x6 x7 x8 x9 x10 x11 x12 x13 :=
  (W19_of_ne m ρ c main_v93 (by decide)).trans ((StableHlo.after_of_forall_not_mem _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w17_v93 m ρ c))

/-! ## The link predictor: the second result -/

/-- The latent node features, written by the encoder's closing dense layer, are read again by the last host stretch:
    no segment in between writes them (the decoder's first matrix product reads them through an input window). -/
theorem w17_v61 : W17 m ρ c (Proc.devRef .tc main_v61) = val_main_v90 (F := Ideal) x0 x1 x2 x3 x4 x5 x6 x7 :=
  (W17_of_ne m ρ c main_v61 (by decide)).trans ((StableHlo.after_of_forall_not_mem _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W15_of_ne m ρ c main_v61 (by decide)).trans
    ((StableHlo.after_of_forall_not_mem _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W13_of_ne m ρ c main_v61 (by decide)).trans ((W12_of_ne m ρ c main_v61 (by decide)).trans
    ((StableHlo.after_of_forall_not_mem _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (((W10_arr m ρ c 0).trans (((dat5 (V9 m ρ) c).arrAt_in 0 rfl _).trans (A_eq5 (V9 m ρ) c 0))).trans
    (w9_v61 m ρ c))))))))
set_option maxHeartbeats 8000000 in
theorem w18_v108 : W18 m ρ c (Proc.devRef .tc main_v108) = val_main_v184 (F := Ideal) x0 x1 x2 x3 x4 x5 x6 x7 := by
  show StableHlo.after hostOps10 (W17 m ρ c) (Proc.devRef .tc main_v108) = _
  after_results
  rw [w17_v61 m ρ c, show W17 m ρ c (Proc.devRef .tc main_v1) = _ from ((at17 m ρ c main_v1 (by simp [stable])).trans (w1_v1 m ρ c)), show W17 m ρ c (Proc.devRef .tc main_v3) = _ from ((at17 m ρ c main_v3 (by simp [stable])).trans (w1_v3 m ρ c))]
  rfl

theorem w18_v109 : W18 m ρ c (Proc.devRef .tc main_v109) = shapeCast S1x1 x15 shapeCasts_S1_S1x1 := by
  show StableHlo.after hostOps10 (W17 m ρ c) (Proc.devRef .tc main_v109) = _
  after_results
  rw [show W17 m ρ c (Proc.devRef .tc main_arg15) = _ from ((at17 m ρ c main_arg15 (by simp [stable])).trans (arg1 m ρ c main_arg15 (by simp [args])))]
  rfl

theorem w19_v110 : W19 m ρ c (Proc.devRef .tc main_v110) = val_main_v194 (F := Ideal) x0 x1 x2 x3 x4 x5 x6 x7 x14 x15 :=
  (W19_arr m ρ c 3).trans ((Region10.final (V18 m ρ) c).trans (by
    rw [show V18 m ρ c main_v108 = _ from w18_v108 m ρ c, show V18 m ρ c main_arg14 = x14 from ((at18 m ρ c main_arg14 (by simp [stable])).trans (arg1 m ρ c main_arg14 (by simp [args]))),
      show V18 m ρ c main_v109 = _ from w18_v109 m ρ c]
    exact (link194 x0 x1 x2 x3 x4 x5 x6 x7 x14 x15 _).symm))

end Cert.KernelIdeal.Fold

end
-- ==== Proof.lean ====
/-
  A graph-convolution autoencoder with a link predictor: the tiled kernel computes what the reference computes.

  Both programs take node features, an edge list and the weights of an encoder (two graph-convolution layers and a
  dense layer), a decoder (the same) and a link predictor. A graph-convolution layer is: transform the features by a
  matrix product; gather each edge's source row, scale it by the edge's norm and add it into the edge's target row;
  add the self-loop term (the transformed features times the squared inverse square-root degree) and the bias; on the
  first layer of each pair, cut below at zero. The kernel runs the matrix products, the self-loop steps, the two closing
  dense layers and the link predictor's matrix product with its logistic function as eleven pipelined regions over
  blocks of rows, and the gathers, the scatter-adds and the degree computation as host operations between them; the
  reference runs everything as whole-array operations.

  On the extended reals the two agree entry by entry, with no appeal to the inputs being finite: a row block of a
  matrix product is the matrix product of the row block (each entry is one whole sum over the contracted axis, so no sum
  is regrouped); a change of float format is the identity; the self-loop step has the reference's grouping
  (agg + h * d) + b; the logistic function of the kernel is by definition the quotient 1 / (1 + exp (-x)) the reference
  spells; and the host operations between the regions are the reference's own, on equal operands.

  The pieces: the kernel's run with its result arrays named (RunNamed); each region's output array as a dense-layer
  function of the arrays the region found (Region0 … Region10 over LibDense); the reference's stages as the same
  functions (RefLayers); the buffers no segment writes (Kept); and the walk through @main's segment boundaries that
  identifies each live kernel buffer with the reference's stage (Fold). The frames of the two kernel programs are the
  generated ones; the reference's frame and value are its generated run.
-/
import proofs.«160709_j25048249270384_1_alg».proof.Defs
import proofs.«160709_j25048249270384_1_alg».proof.Proof.Gen.Kernel
import proofs.«160709_j25048249270384_1_alg».proof.Proof.Gen.Kernel.Skeleton
import proofs.«160709_j25048249270384_1_alg».proof.Proof.Gen.Kernel.Launch
import proofs.«160709_j25048249270384_1_alg».proof.Proof.Gen.Kernel.Points
import proofs.«160709_j25048249270384_1_alg».proof.Proof.Gen.Kernel.Frame
import proofs.«160709_j25048249270384_1_alg».proof.Proof.Gen.KernelIdeal
import proofs.«160709_j25048249270384_1_alg».proof.Proof.Gen.KernelIdeal.Skeleton
import proofs.«160709_j25048249270384_1_alg».proof.Proof.Gen.KernelIdeal.Launch
import proofs.«160709_j25048249270384_1_alg».proof.Proof.Gen.KernelIdeal.Points
import proofs.«160709_j25048249270384_1_alg».proof.Proof.Gen.KernelIdeal.Frame
import proofs.«160709_j25048249270384_1_alg».proof.Proof.Gen.ReferenceIdeal
import proofs.«160709_j25048249270384_1_alg».proof.Proof.Gen.ReferenceIdeal.Run
import proofs.«160709_j25048249270384_1_alg».proof.Proof.Gen.ReferenceIdeal.Read
import proofs.«160709_j25048249270384_1_alg».proof.Proof.Gen.Pre_finite_inputs
import proofs.«160709_j25048249270384_1_alg».proof.Proof.RunNamed
import proofs.«160709_j25048249270384_1_alg».proof.Proof.Fold
import Idealize.ShloMosaic.Adequacy
import Idealize.ShloMosaic.Init

set_option maxRecDepth 16384

noncomputable section

namespace Cert.Proof

open Idealize.ShloMosaic Idealize.ShloMosaic.TcCoe Idealize.SL.Sem

/-- The three programs terminate without a fault and leave their arguments as launched: the two kernel programs by
    their generated frames, the reference by its generated run with the results dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same two arrays: the reference's last stages
    at the kernel's argument arrays. -/
theorem algebraic : Cert.algebraic_KernelIdeal_ReferenceIdeal := by
  intro m ρ m' ρ' _ hagree
  refine ⟨fun c => Cert.ReferenceIdeal.Read.val_main_v169 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Read.val_main_v194 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c =>
      ⟨(h c).1.trans (Cert.KernelIdeal.Fold.w19_v93 m ρ c), (h c).2.1.trans (Cert.KernelIdeal.Fold.w19_v110 m ρ c), (h c).2.2⟩)
      (Cert.KernelIdeal.Named.run m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15⟩ := hagree c
    refine ⟨(h c).1.trans ?_, (h c).2.1.trans ?_, (h c).2.2⟩
    · rw [Cert.ReferenceIdeal.Read.val_main_v169_eq, h0, h1, h2, h3, h4, h5, h6, h7, h8, h9, h10, h11, h12, h13]
    · rw [Cert.ReferenceIdeal.Read.val_main_v194_eq, h0, h1, h2, h3, h4, h5, h6, h7, h14, h15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
